-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x128 .f32) (main_arg7 : FVec F S64 .f32) (main_arg8 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : IVec S2x200000 32) (main_arg3 : FVec F S128x128 .f32) (main_arg4 : FVec F S128 .f32) (main_arg5 : FVec F S128x128 .f32) (main_arg6 : FVec F S64x128 .f32) (main_arg7 : FVec F S64 .f32) (main_arg8 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S102400x128 : Shape := ⟨2, ![102400, 128]⟩
abbrev S1x128 : Shape := ⟨2, ![1, 128]⟩
abbrev S4096x128 : Shape := ⟨2, ![4096, 128]⟩
abbrev S1x64 : Shape := ⟨2, ![1, 64]⟩
abbrev S102400x64 : Shape := ⟨2, ![102400, 64]⟩
abbrev S4096x64 : Shape := ⟨2, ![4096, 64]⟩
abbrev S128x64 : Shape := ⟨2, ![128, 64]⟩
abbrev S100000x64 : Shape := ⟨2, ![100000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S204800x64 : Shape := ⟨2, ![204800, 64]⟩
abbrev S204800x1 : Shape := ⟨2, ![204800, 1]⟩
abbrev S8192x64 : Shape := ⟨2, ![8192, 64]⟩
abbrev S8192x1 : Shape := ⟨2, ![8192, 1]⟩
abbrev S8192 : Shape := ⟨1, ![8192]⟩

abbrev nBuf : Space → Nat
  | .hbm => 106
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .f32⟩
  | .hbm, ⟨14, _⟩ => ⟨S600000, .f32⟩
  | .hbm, ⟨15, _⟩ => ⟨S_, .f32⟩
  | .hbm, ⟨16, _⟩ => ⟨S100000, .f32⟩
  | .hbm, ⟨17, _⟩ => ⟨S600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S_, .f32⟩
  | .hbm, ⟨43, _⟩ => ⟨S102400x128, .f32⟩
  | .hbm, ⟨44, _⟩ => ⟨S_, .i32⟩
  | .hbm, ⟨45, _⟩ => ⟨S_, .f32⟩
  | .hbm, ⟨46, _⟩ => ⟨S102400x128, .f32⟩
  | .hbm, ⟨47, _⟩ => ⟨S1x128, .f32⟩
  | .hbm, ⟨48, _⟩ => ⟨S102400x128, .f32⟩
  | .hbm, ⟨49, _⟩ => ⟨S100000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S100000x128, .f32⟩
  | .hbm, ⟨61, _⟩ => ⟨S600000x1, .i32⟩
  | .hbm, ⟨62, _⟩ => ⟨S100000x128, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S_, .f32⟩
  | .hbm, ⟨68, _⟩ => ⟨S102400x128, .f32⟩
  | .hbm, ⟨69, _⟩ => ⟨S_, .i32⟩
  | .hbm, ⟨70, _⟩ => ⟨S_, .f32⟩
  | .hbm, ⟨71, _⟩ => ⟨S102400x128, .f32⟩
  | .hbm, ⟨72, _⟩ => ⟨S1x64, .f32⟩
  | .hbm, ⟨73, _⟩ => ⟨S102400x64, .f32⟩
  | .hbm, ⟨74, _⟩ => ⟨S100000x64, .f32⟩
  | .hbm, ⟨75, _⟩ => ⟨S1x200000, .i32⟩
  | .hbm, ⟨76, _⟩ => ⟨S200000, .i32⟩
  | .hbm, ⟨77, _⟩ => ⟨S1x200000, .i32⟩
  | .hbm, ⟨78, _⟩ => ⟨S200000, .i32⟩
  | .hbm, ⟨79, _⟩ => ⟨S_, .i32⟩
  | .hbm, ⟨80, _⟩ => ⟨S200000, .i32⟩
  | .hbm, ⟨81, _⟩ => ⟨S200000, .i1⟩
  | .hbm, ⟨82, _⟩ => ⟨S_, .i32⟩
  | .hbm, ⟨83, _⟩ => ⟨S200000, .i32⟩
  | .hbm, ⟨84, _⟩ => ⟨S200000, .i32⟩
  | .hbm, ⟨85, _⟩ => ⟨S200000, .i32⟩
  | .hbm, ⟨86, _⟩ => ⟨S200000x1, .i32⟩
  | .hbm, ⟨87, _⟩ => ⟨S200000x64, .f32⟩
  | .hbm, ⟨88, _⟩ => ⟨S_, .i32⟩
  | .hbm, ⟨89, _⟩ => ⟨S200000, .i32⟩
  | .hbm, ⟨90, _⟩ => ⟨S200000, .i1⟩
  | .hbm, ⟨91, _⟩ => ⟨S_, .i32⟩
  | .hbm, ⟨92, _⟩ => ⟨S200000, .i32⟩
  | .hbm, ⟨93, _⟩ => ⟨S200000, .i32⟩
  | .hbm, ⟨94, _⟩ => ⟨S200000, .i32⟩
  | .hbm, ⟨95, _⟩ => ⟨S200000x1, .i32⟩
  | .hbm, ⟨96, _⟩ => ⟨S200000x64, .f32⟩
  | .hbm, ⟨97, _⟩ => ⟨S_, .i32⟩
  | .hbm, ⟨98, _⟩ => ⟨S_, .f32⟩
  | .hbm, ⟨99, _⟩ => ⟨S204800x64, .f32⟩
  | .hbm, ⟨100, _⟩ => ⟨S_, .i32⟩
  | .hbm, ⟨101, _⟩ => ⟨S_, .f32⟩
  | .hbm, ⟨102, _⟩ => ⟨S204800x64, .f32⟩
  | .hbm, ⟨103, _⟩ => ⟨S204800x1, .f32⟩
  | .hbm, ⟨104, _⟩ => ⟨S200000x1, .f32⟩
  | .hbm, ⟨105, _⟩ => ⟨S200000, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S64x128, .f32⟩
  | .local _ .vmem, ⟨14, _⟩ => ⟨S1x64, .f32⟩
  | .local _ .vmem, ⟨15, _⟩ => ⟨S64x128, .f32⟩
  | .local _ .vmem, ⟨16, _⟩ => ⟨S4096x64, .f32⟩
  | .local _ .vmem, ⟨17, _⟩ => ⟨S4096x64, .f32⟩
  | .local _ .vmem, ⟨18, _⟩ => ⟨S8192x64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | .local _ .vmem, ⟨22, _⟩ => ⟨S8192x1, .f32⟩
  | .local _ .vmem, ⟨23, _⟩ => ⟨S8192x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_call0_v0 : Ref sig .tc := ⟨.hbm, 42, rfl⟩
abbrev main_v25 : Ref sig .tc := ⟨.hbm, 43, rfl⟩
abbrev main_c_6 : Ref sig .tc := ⟨.hbm, 44, rfl⟩
abbrev main_call1_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_call2_v0 : Ref sig .tc := ⟨.hbm, 67, rfl⟩
abbrev main_v43 : Ref sig .tc := ⟨.hbm, 68, rfl⟩
abbrev main_c_11 : Ref sig .tc := ⟨.hbm, 69, rfl⟩
abbrev main_call3_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_c_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_c_15 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_call4_v0 : Ref sig .tc := ⟨.hbm, 98, rfl⟩
abbrev main_v66 : Ref sig .tc := ⟨.hbm, 99, rfl⟩
abbrev main_c_17 : Ref sig .tc := ⟨.hbm, 100, rfl⟩
abbrev main_call5_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  pads_S100000x128_S102400x128_024000_000 : S100000x128.Pads (![0, 0] : Fin 2 → Nat) ![2400, 0] ![0, 0] S102400x128
  h_S_ : 0 < S_.numel
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S102400x128_S100000x128_0_0 : S102400x128.Slices ![0, 0] S100000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  slices_S102400x64_S100000x64_0_0 : S102400x64.Slices ![0, 0] S100000x64
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  pads_S200000x64_S204800x64_048000_000 : S200000x64.Pads (![0, 0] : Fin 2 → Nat) ![4800, 0] ![0, 0] S204800x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  slices_S204800x1_S200000x1_0_0 : S204800x1.Slices ![0, 0] S200000x1
  shapeCasts_S200000x1_S200000 : S200000x1.ShapeCasts S200000
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S102400x128.size a
  hwx0_1 : ∀ i : grid0.Coords, EltTy.bits .f32 = 32 ∨ (Rect.block (s := S102400x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S102400x128.size a
  hwx0_5 : ∀ i : grid0.Coords, EltTy.bits .f32 = 32 ∨ (Rect.block (s := S102400x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S102400x128.size a
  hwx1_0 : ∀ i : grid1.Coords, EltTy.bits .f32 = 32 ∨ (Rect.block (s := S102400x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S102400x128.size a
  hwx1_1 : ∀ i : grid1.Coords, EltTy.bits .f32 = 32 ∨ (Rect.block (s := S102400x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x64.size a ≤ S102400x64.size a
  hwx1_5 : ∀ i : grid1.Coords, EltTy.bits .f32 = 32 ∨ (Rect.block (s := S102400x64) S4096x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S204800x64.size a
  hwx2_0 : ∀ i : grid2.Coords, EltTy.bits .f32 = 32 ∨ (Rect.block (s := S204800x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S204800x64.size a
  hwx2_1 : ∀ i : grid2.Coords, EltTy.bits .f32 = 32 ∨ (Rect.block (s := S204800x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x1.size a ≤ S204800x1.size a
  hwx2_2 : ∀ i : grid2.Coords, EltTy.bits .f32 = 32 ∨ (Rect.block (s := S204800x1) S8192x1.size (cc2_transform_2 i) (hinb2_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_v25) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S4096x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S8192x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S100000x128, .f32⟩
  | .hbm, ⟨24, _⟩ => ⟨S600000x1, .i32⟩
  | .hbm, ⟨25, _⟩ => ⟨S100000x128, .f32⟩
  | .hbm, ⟨26, _⟩ => ⟨S_, .f32⟩
  | .hbm, ⟨27, _⟩ => ⟨S600000, .f32⟩
  | .hbm, ⟨28, _⟩ => ⟨S_, .f32⟩
  | .hbm, ⟨29, _⟩ => ⟨S100000, .f32⟩
  | .hbm, ⟨30, _⟩ => ⟨S600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S100000x128, .f32⟩
  | .hbm, ⟨60, _⟩ => ⟨S600000x1, .i32⟩
  | .hbm, ⟨61, _⟩ => ⟨S100000x128, .f32⟩
  | .hbm, ⟨62, _⟩ => ⟨S_, .f32⟩
  | .hbm, ⟨63, _⟩ => ⟨S600000, .f32⟩
  | .hbm, ⟨64, _⟩ => ⟨S_, .f32⟩
  | .hbm, ⟨65, _⟩ => ⟨S100000, .f32⟩
  | .hbm, ⟨66, _⟩ => ⟨S600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S128x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S128x64, .f32⟩
  | .hbm, ⟨80, _⟩ => ⟨S100000x64, .f32⟩
  | .hbm, ⟨81, _⟩ => ⟨S100000x64, .f32⟩
  | .hbm, ⟨82, _⟩ => ⟨S1x200000, .i32⟩
  | .hbm, ⟨83, _⟩ => ⟨S200000, .i32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x64, .f32⟩
  | .hbm, ⟨93, _⟩ => ⟨S1x200000, .i32⟩
  | .hbm, ⟨94, _⟩ => ⟨S200000, .i32⟩
  | .hbm, ⟨95, _⟩ => ⟨S_, .i32⟩
  | .hbm, ⟨96, _⟩ => ⟨S200000, .i32⟩
  | .hbm, ⟨97, _⟩ => ⟨S200000, .i1⟩
  | .hbm, ⟨98, _⟩ => ⟨S_, .i32⟩
  | .hbm, ⟨99, _⟩ => ⟨S200000, .i32⟩
  | .hbm, ⟨100, _⟩ => ⟨S200000, .i32⟩
  | .hbm, ⟨101, _⟩ => ⟨S200000, .i32⟩
  | .hbm, ⟨102, _⟩ => ⟨S200000x1, .i32⟩
  | .hbm, ⟨103, _⟩ => ⟨S200000x64, .f32⟩
  | .hbm, ⟨104, _⟩ => ⟨S200000x64, .f32⟩
  | .hbm, ⟨105, _⟩ => ⟨S_, .f32⟩
  | .hbm, ⟨106, _⟩ => ⟨S200000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_c_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S200000x1_S200000x64_1_0_n_n_0_1_164_wf : GatherDims.WF S100000x64 S200000x1 S200000x64 [1] [0] [] [0] [] 1 ![1, 64]

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.KernelRun.lean ====
/-
  The idealized kernel's run with its result named.

  Every weakly fair execution of the program terminates without a fault; the result buffer ends at what the fold of the
  program's segments — host stretches and the three regions' write-backs — leaves in it (`W18 … main_v70`), and the nine
  argument arrays end as launched.
-/
import proofs.«120249_j1305670058226_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the end of the fold. -/
theorem run_value : θ_run defs (onTc (τ := τ) (main (F := F))) ⟨m, fun _ => 0, ρ⟩ (fun r => ∀ c : Dev nD,
      r.2.mem ((c.tc : Thread nD τ).loc main_v70) = W18 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v70 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c)⟩)

end Cert.KernelIdeal.Hand

end
-- ==== Proof.HostDefs.lean ====
/-
  The host-side stages of the idealized kernel program, named.

  Between its three regions the program gathers rows at edge sources, adds them into the rows of edge destinations,
  scales the sums by the reciprocal of the clamped in-degree, pads arrays below with rows of zero to a whole number of
  tiles, and cuts the padding off again. Each is named here once, so that what a region finds and what the next stretch
  makes of a region's result can be stated shortly.
-/
import proofs.«120249_j1305670058226_1_alg».proof.Proof.Gen.KernelIdeal.Frame
import proofs.«120249_j1305670058226_1_alg».proof.Proof.Gen.ReferenceIdeal.Read
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

/-- The arrays' types: the two index arrays, a feature array of each layer's width. -/
abbrev Et := IVec S2x600000 32
abbrev Lt := IVec S2x200000 32
abbrev Ht := FVec Ideal S100000x128 .f32
abbrev Zt := FVec Ideal S100000x64 .f32

/-- The zero the padding is filled with (an integer zero converted). -/
abbrev zs : FVec Ideal S_ .f32 := sitofp (F := Ideal) .f32 (constantI S_ 32 0#32)

/-- The first `100000` rows of a padded array. -/
def topRows (A : FVec Ideal S102400x128 .f32) : Ht :=
  extractStridedSlice S100000x128 ![0, 0] A slices_S102400x128_S100000x128_0_0

def topRows64 (A : FVec Ideal S102400x64 .f32) : Zt :=
  extractStridedSlice S100000x64 ![0, 0] A slices_S102400x64_S100000x64_0_0

/-- An array of 200000 rows padded below with 4800 rows of zero. -/
def padEdges (A : FVec Ideal S200000x64 .f32) : FVec Ideal S204800x64 .f32 :=
  pad S204800x64 ![0, 0] ![4800, 0] ![0, 0] A zs pads_S200000x64_S204800x64_048000_000 h_S_

/-- Rows of the second layer's output gathered at label-edge endpoints. -/
def rowsAt (z : Zt) (idx : IVec S200000x1 32) : FVec Ideal S200000x64 .f32 :=
  Host.gather gather_S100000x64_S200000x1_S200000x64_1_0_n_n_0_1_164 z idx

/-- The edges' sources and destinations: the two rows of the edge array. -/
def srcOf (ei : Et) : IVec S600000 32 :=
  shapeCast S600000 (extractStridedSlice S1x600000 ![0, 0] ei slices_S2x600000_S1x600000_0_0) shapeCasts_S1x600000_S600000

def dstOf (ei : Et) : IVec S600000 32 :=
  shapeCast S600000 (extractStridedSlice S1x600000 ![1, 0] ei slices_S2x600000_S1x600000_1_0) shapeCasts_S1x600000_S600000

/-- The in-degrees: a one added at each edge's destination, from zero. -/
def cntOf (ei : Et) : FVec Ideal S100000 .f32 :=
  Host.scatterAdd scatter_S100000_S600000x1_S600000_n_0_0_1
    (broadcastInDim S100000 ![] bcast_S_S100000 (constant (F := Ideal) S_ .f32 0x00000000#32))
    (broadcastInDim S600000x1 ![0] bcast_S600000_S600000x1_0 (dstOf ei))
    (broadcastInDim S600000 ![] bcast_S_S600000 (constant (F := Ideal) S_ .f32 0x3F800000#32))

/-- The reciprocal of the clamped in-degree, as the kernel's host code computes it once. -/
def recip (ei : Et) : FVec Ideal S100000 .f32 :=
  Host.divf (broadcastInDim S100000 ![] bcast_S_S100000 (constant (F := Ideal) S_ .f32 0x3F800000#32))
    (maximumf (cntOf ei) (broadcastInDim S100000 ![] bcast_S_S100000 (constant (F := Ideal) S_ .f32 0x3F800000#32)))

/-- Neighbour sums scaled by a per-node factor, row by row. -/
def scaled (S : Ht) (r : FVec Ideal S100000 .f32) : Ht :=
  mulf S (broadcastInDim S100000x128 ![0, 1] bcast_S100000x1_S100000x128_0_1
    (broadcastInDim S100000x1 ![0] bcast_S100000_S100000x1_0 r))

/-- The neighbour sums of a feature array: rows gathered at the edges' sources (negative indices wrapped), added into
    the rows of the edges' destinations, from zero. -/
def aggOf (h : Ht) (src dst : IVec S600000 32) : Ht :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- An array of 100000 rows padded below with 2400 rows of zero. -/
def padRows (A : Ht) : FVec Ideal S102400x128 .f32 :=
  pad S102400x128 ![0, 0] ![2400, 0] ![0, 0] A zs pads_S100000x128_S102400x128_024000_000 h_S_

/-! ## The reference's names for the same stages -/

theorem ref_v1 (ei : Et) : Cert.ReferenceIdeal.Read.val_main_v1 (F := Ideal) ei = srcOf ei := rfl
theorem ref_v3 (ei : Et) : Cert.ReferenceIdeal.Read.val_main_v3 (F := Ideal) ei = dstOf ei := rfl
theorem ref_v17 (ei : Et) : Cert.ReferenceIdeal.Read.val_main_v17 (F := Ideal) ei = cntOf ei := rfl
theorem ref_v45 (ei : Et) : Cert.ReferenceIdeal.Read.val_main_v45 (F := Ideal) ei = cntOf ei := rfl

theorem ref_v13 (x : Ht) (ei : Et) : Cert.ReferenceIdeal.Read.val_main_v13 (F := Ideal) x ei
    = aggOf x (srcOf ei) (dstOf ei) := rfl

theorem ref_v41 (x : Ht) (ei : Et) (W1l : FVec Ideal S128x128 .f32) (b1 : FVec Ideal S128 .f32) (W1r : FVec Ideal S128x128 .f32) :
    Cert.ReferenceIdeal.Read.val_main_v41 (F := Ideal) x ei W1l b1 W1r
    = aggOf (Cert.ReferenceIdeal.Read.val_main_v31 (F := Ideal) x ei W1l b1 W1r) (srcOf ei) (dstOf ei) := rfl

/-- The label edges' endpoints as gather indices (negative indices wrapped). -/
def wrapIdx (v : IVec S200000 32) : IVec S200000x1 32 :=
  broadcastInDim S200000x1 ![0] bcast_S200000_S200000x1_0
    (select (cmpi .slt v (broadcastInDim S200000 ![] bcast_S_S200000 (constantI S_ 32 0#32)))
      (addi v (broadcastInDim S200000 ![] bcast_S_S200000 (constantI S_ 32 100000#32))) v)

def endOf0 (eli : Lt) : IVec S200000x1 32 :=
  wrapIdx (shapeCast S200000 (extractStridedSlice S1x200000 ![0, 0] eli slices_S2x200000_S1x200000_0_0) shapeCasts_S1x200000_S200000)

def endOf1 (eli : Lt) : IVec S200000x1 32 :=
  wrapIdx (shapeCast S200000 (extractStridedSlice S1x200000 ![1, 0] eli slices_S2x200000_S1x200000_1_0) shapeCasts_S1x200000_S200000)

theorem ref_v66 (eli : Lt) : Cert.ReferenceIdeal.Read.val_main_v66 (F := Ideal) eli = endOf0 eli := rfl
theorem ref_v75 (eli : Lt) : Cert.ReferenceIdeal.Read.val_main_v75 (F := Ideal) eli = endOf1 eli := rfl

theorem ref_v67 (x : Ht) (ei : Et) (eli : Lt) (W1l : FVec Ideal S128x128 .f32) (b1 : FVec Ideal S128 .f32) (W1r : FVec Ideal S128x128 .f32)
    (W2l : FVec Ideal S64x128 .f32) (b2 : FVec Ideal S64 .f32) (W2r : FVec Ideal S64x128 .f32) :
    Cert.ReferenceIdeal.Read.val_main_v67 (F := Ideal) x ei eli W1l b1 W1r W2l b2 W2r
    = rowsAt (Cert.ReferenceIdeal.Read.val_main_v58 (F := Ideal) x ei W1l b1 W1r W2l b2 W2r) (endOf0 eli) := rfl

theorem ref_v76 (x : Ht) (ei : Et) (eli : Lt) (W1l : FVec Ideal S128x128 .f32) (b1 : FVec Ideal S128 .f32) (W1r : FVec Ideal S128x128 .f32)
    (W2l : FVec Ideal S64x128 .f32) (b2 : FVec Ideal S64 .f32) (W2r : FVec Ideal S64x128 .f32) :
    Cert.ReferenceIdeal.Read.val_main_v76 (F := Ideal) x ei eli W1l b1 W1r W2l b2 W2r
    = rowsAt (Cert.ReferenceIdeal.Read.val_main_v58 (F := Ideal) x ei W1l b1 W1r W2l b2 W2r) (endOf1 eli) := rfl

end Cert.KernelIdeal.Hand
end
-- ==== Proof.HostReads.lean ====
/-
  What the host operations between the regions leave in the buffers the regions read.

  Each stretch of host operations is a fold over the buffer contents; the lemmas here read one buffer after a stretch as
  the stretch's operations applied to the contents the stretch started from — first the long stretch of plain
  operations (gathers, scatter-adds, the scaling), then the short ones that pad and reshape.
-/
import proofs.«120249_j1305670058226_1_alg».proof.Proof.HostDefs

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

/-! ## Within the first stretch before each region (plain operations) -/

set_option maxHeartbeats 1000000 in
set_option maxRecDepth 100000 in
/-- The scaled neighbour sums of the features. -/
theorem head0_v24 (Wp : Valuation τ sig (Elt Ideal)) :
    ((StableHlo.after hostOps0 Wp) (Proc.devRef .tc main_v24) : Ht) = scaled (aggOf (Wp (Proc.devRef .tc main_arg0) : Ht) (srcOf (Wp (Proc.devRef .tc main_arg1) : Et)) (dstOf (Wp (Proc.devRef .tc main_arg1) : Et))) (recip (Wp (Proc.devRef .tc main_arg1) : Et)) := by
  after_results_simp
  try rfl

set_option maxHeartbeats 1000000 in
set_option maxRecDepth 100000 in
/-- The padding value's integer zero. -/
theorem head0_c5 (Wp : Valuation τ sig (Elt Ideal)) :
    ((StableHlo.after hostOps0 Wp) (Proc.devRef .tc main_c_5) : IVec S_ 32) = constantI S_ 32 0#32 := by
  after_results_simp
  try rfl

set_option maxHeartbeats 1000000 in
set_option maxRecDepth 100000 in
/-- The edges' sources. -/
theorem head0_v1 (Wp : Valuation τ sig (Elt Ideal)) :
    ((StableHlo.after hostOps0 Wp) (Proc.devRef .tc main_v1) : IVec S600000 32) = srcOf (Wp (Proc.devRef .tc main_arg1) : Et) := by
  after_results_simp
  try rfl

set_option maxHeartbeats 1000000 in
set_option maxRecDepth 100000 in
/-- The edges' destinations. -/
theorem head0_v3 (Wp : Valuation τ sig (Elt Ideal)) :
    ((StableHlo.after hostOps0 Wp) (Proc.devRef .tc main_v3) : IVec S600000 32) = dstOf (Wp (Proc.devRef .tc main_arg1) : Et) := by
  after_results_simp
  try rfl

set_option maxHeartbeats 1000000 in
set_option maxRecDepth 100000 in
/-- The reciprocal degrees. -/
theorem head0_v11 (Wp : Valuation τ sig (Elt Ideal)) :
    ((StableHlo.after hostOps0 Wp) (Proc.devRef .tc main_v11) : FVec Ideal S100000 .f32) = recip (Wp (Proc.devRef .tc main_arg1) : Et) := by
  after_results_simp
  try rfl

set_option maxHeartbeats 2000000 in
set_option maxRecDepth 100000 in
/-- Argument 0 is not written by the first stretch. -/
theorem head0_arg0 (Wp : Valuation τ sig (Elt Ideal)) :
    (StableHlo.after hostOps0 Wp) (Proc.devRef .tc main_arg0) = Wp (Proc.devRef .tc main_arg0) := by
  after_results_simp

set_option maxHeartbeats 2000000 in
set_option maxRecDepth 100000 in
/-- Argument 2 is not written by the first stretch. -/
theorem head0_arg2 (Wp : Valuation τ sig (Elt Ideal)) :
    (StableHlo.after hostOps0 Wp) (Proc.devRef .tc main_arg2) = Wp (Proc.devRef .tc main_arg2) := by
  after_results_simp

set_option maxHeartbeats 2000000 in
set_option maxRecDepth 100000 in
/-- Argument 3 is not written by the first stretch. -/
theorem head0_arg3 (Wp : Valuation τ sig (Elt Ideal)) :
    (StableHlo.after hostOps0 Wp) (Proc.devRef .tc main_arg3) = Wp (Proc.devRef .tc main_arg3) := by
  after_results_simp

set_option maxHeartbeats 2000000 in
set_option maxRecDepth 100000 in
/-- Argument 4 is not written by the first stretch. -/
theorem head0_arg4 (Wp : Valuation τ sig (Elt Ideal)) :
    (StableHlo.after hostOps0 Wp) (Proc.devRef .tc main_arg4) = Wp (Proc.devRef .tc main_arg4) := by
  after_results_simp

set_option maxHeartbeats 2000000 in
set_option maxRecDepth 100000 in
/-- Argument 5 is not written by the first stretch. -/
theorem head0_arg5 (Wp : Valuation τ sig (Elt Ideal)) :
    (StableHlo.after hostOps0 Wp) (Proc.devRef .tc main_arg5) = Wp (Proc.devRef .tc main_arg5) := by
  after_results_simp

set_option maxHeartbeats 2000000 in
set_option maxRecDepth 100000 in
/-- Argument 6 is not written by the first stretch. -/
theorem head0_arg6 (Wp : Valuation τ sig (Elt Ideal)) :
    (StableHlo.after hostOps0 Wp) (Proc.devRef .tc main_arg6) = Wp (Proc.devRef .tc main_arg6) := by
  after_results_simp

set_option maxHeartbeats 2000000 in
set_option maxRecDepth 100000 in
/-- Argument 7 is not written by the first stretch. -/
theorem head0_arg7 (Wp : Valuation τ sig (Elt Ideal)) :
    (StableHlo.after hostOps0 Wp) (Proc.devRef .tc main_arg7) = Wp (Proc.devRef .tc main_arg7) := by
  after_results_simp

set_option maxHeartbeats 2000000 in
set_option maxRecDepth 100000 in
/-- Argument 8 is not written by the first stretch. -/
theorem head0_arg8 (Wp : Valuation τ sig (Elt Ideal)) :
    (StableHlo.after hostOps0 Wp) (Proc.devRef .tc main_arg8) = Wp (Proc.devRef .tc main_arg8) := by
  after_results_simp

set_option maxHeartbeats 1000000 in
set_option maxRecDepth 100000 in
/-- The scaled neighbour sums of the first layer's output. -/
theorem head1_v42 (Wp : Valuation τ sig (Elt Ideal)) :
    ((StableHlo.after hostOps1 Wp) (Proc.devRef .tc main_v42) : Ht) = scaled (aggOf (topRows (Wp (Proc.devRef .tc main_v28) : FVec Ideal S102400x128 .f32)) (Wp (Proc.devRef .tc main_v1) : IVec S600000 32) (Wp (Proc.devRef .tc main_v3) : IVec S600000 32)) (Wp (Proc.devRef .tc main_v11) : FVec Ideal S100000 .f32) := by
  after_results_simp
  try rfl

set_option maxHeartbeats 1000000 in
set_option maxRecDepth 100000 in
/-- The first layer's output cut back to the nodes. -/
theorem head1_v29 (Wp : Valuation τ sig (Elt Ideal)) :
    ((StableHlo.after hostOps1 Wp) (Proc.devRef .tc main_v29) : Ht) = topRows (Wp (Proc.devRef .tc main_v28) : FVec Ideal S102400x128 .f32) := by
  after_results_simp
  try rfl

set_option maxHeartbeats 1000000 in
set_option maxRecDepth 100000 in
/-- The padding value's integer zero. -/
theorem head1_c10 (Wp : Valuation τ sig (Elt Ideal)) :
    ((StableHlo.after hostOps1 Wp) (Proc.devRef .tc main_c_10) : IVec S_ 32) = constantI S_ 32 0#32 := by
  after_results_simp
  try rfl

set_option maxHeartbeats 2000000 in
set_option maxRecDepth 100000 in
/-- Argument 2 is not written by the stretch after region 0. -/
theorem head1_arg2 (Wp : Valuation τ sig (Elt Ideal)) :
    (StableHlo.after hostOps1 Wp) (Proc.devRef .tc main_arg2) = Wp (Proc.devRef .tc main_arg2) := by
  after_results_simp

set_option maxHeartbeats 2000000 in
set_option maxRecDepth 100000 in
/-- Argument 6 is not written by the stretch after region 0. -/
theorem head1_arg6 (Wp : Valuation τ sig (Elt Ideal)) :
    (StableHlo.after hostOps1 Wp) (Proc.devRef .tc main_arg6) = Wp (Proc.devRef .tc main_arg6) := by
  after_results_simp

set_option maxHeartbeats 2000000 in
set_option maxRecDepth 100000 in
/-- Argument 7 is not written by the stretch after region 0. -/
theorem head1_arg7 (Wp : Valuation τ sig (Elt Ideal)) :
    (StableHlo.after hostOps1 Wp) (Proc.devRef .tc main_arg7) = Wp (Proc.devRef .tc main_arg7) := by
  after_results_simp

set_option maxHeartbeats 2000000 in
set_option maxRecDepth 100000 in
/-- Argument 8 is not written by the stretch after region 0. -/
theorem head1_arg8 (Wp : Valuation τ sig (Elt Ideal)) :
    (StableHlo.after hostOps1 Wp) (Proc.devRef .tc main_arg8) = Wp (Proc.devRef .tc main_arg8) := by
  after_results_simp

set_option maxHeartbeats 1000000 in
set_option maxRecDepth 100000 in
/-- The rows at the label edges' first endpoints. -/
theorem head2_v58 (Wp : Valuation τ sig (Elt Ideal)) :
    ((StableHlo.after hostOps2 Wp) (Proc.devRef .tc main_v58) : FVec Ideal S200000x64 .f32) = rowsAt (topRows64 (Wp (Proc.devRef .tc main_v46) : FVec Ideal S102400x64 .f32)) (endOf0 (Wp (Proc.devRef .tc main_arg2) : Lt)) := by
  after_results_simp
  try rfl

set_option maxHeartbeats 1000000 in
set_option maxRecDepth 100000 in
/-- The rows at the label edges' second endpoints. -/
theorem head2_v65 (Wp : Valuation τ sig (Elt Ideal)) :
    ((StableHlo.after hostOps2 Wp) (Proc.devRef .tc main_v65) : FVec Ideal S200000x64 .f32) = rowsAt (topRows64 (Wp (Proc.devRef .tc main_v46) : FVec Ideal S102400x64 .f32)) (endOf1 (Wp (Proc.devRef .tc main_arg2) : Lt)) := by
  after_results_simp
  try rfl

set_option maxHeartbeats 1000000 in
set_option maxRecDepth 100000 in
/-- The padding value's integer zero. -/
theorem head2_c16 (Wp : Valuation τ sig (Elt Ideal)) :
    ((StableHlo.after hostOps2 Wp) (Proc.devRef .tc main_c_16) : IVec S_ 32) = constantI S_ 32 0#32 := by
  after_results_simp
  try rfl

/-! ## The short stretches that pad and reshape, from any contents `Wp` after the first stretch -/

set_option maxHeartbeats 1000000 in
set_option maxRecDepth 100000 in
/-- The first operand padded. -/
theorem tail0_v25 (Wp : Valuation τ sig (Elt Ideal)) :
    ((StableHlo.after hostOps0_4 (StableHlo.after hostOps0_3 (StableHlo.after hostOps0_2 (StableHlo.after hostOps0_1 Wp)))) (Proc.devRef .tc main_v25) : FVec Ideal S102400x128 .f32) = pad S102400x128 ![0, 0] ![2400, 0] ![0, 0] (Wp (Proc.devRef .tc main_v24) : Ht) (sitofp (F := Ideal) .f32 (Wp (Proc.devRef .tc main_c_5) : IVec S_ 32)) pads_S100000x128_S102400x128_024000_000 h_S_ := by
  after_results_simp
  try rfl

set_option maxHeartbeats 1000000 in
set_option maxRecDepth 100000 in
/-- The features padded. -/
theorem tail0_v26 (Wp : Valuation τ sig (Elt Ideal)) :
    ((StableHlo.after hostOps0_4 (StableHlo.after hostOps0_3 (StableHlo.after hostOps0_2 (StableHlo.after hostOps0_1 Wp)))) (Proc.devRef .tc main_v26) : FVec Ideal S102400x128 .f32) = pad S102400x128 ![0, 0] ![2400, 0] ![0, 0] (Wp (Proc.devRef .tc main_arg0) : Ht) (sitofp (F := Ideal) .f32 (constantI S_ 32 0#32)) pads_S100000x128_S102400x128_024000_000 h_S_ := by
  after_results_simp
  try rfl

set_option maxHeartbeats 1000000 in
set_option maxRecDepth 100000 in
/-- The bias vector as a row. -/
theorem tail0_v27 (Wp : Valuation τ sig (Elt Ideal)) :
    ((StableHlo.after hostOps0_4 (StableHlo.after hostOps0_3 (StableHlo.after hostOps0_2 (StableHlo.after hostOps0_1 Wp)))) (Proc.devRef .tc main_v27) : FVec Ideal S1x128 .f32) = shapeCast S1x128 (Wp (Proc.devRef .tc main_arg4) : FVec Ideal S128 .f32) shapeCasts_S128_S1x128 := by
  after_results_simp
  try rfl

set_option maxHeartbeats 2000000 in
set_option maxRecDepth 100000 in
/-- `main_v1` is not written by the short stretches before region 0. -/
theorem tail0_v1 (Wp : Valuation τ sig (Elt Ideal)) :
    (StableHlo.after hostOps0_4 (StableHlo.after hostOps0_3 (StableHlo.after hostOps0_2 (StableHlo.after hostOps0_1 Wp)))) (Proc.devRef .tc main_v1) = Wp (Proc.devRef .tc main_v1) := by
  after_results_simp

set_option maxHeartbeats 2000000 in
set_option maxRecDepth 100000 in
/-- `main_v3` is not written by the short stretches before region 0. -/
theorem tail0_v3 (Wp : Valuation τ sig (Elt Ideal)) :
    (StableHlo.after hostOps0_4 (StableHlo.after hostOps0_3 (StableHlo.after hostOps0_2 (StableHlo.after hostOps0_1 Wp)))) (Proc.devRef .tc main_v3) = Wp (Proc.devRef .tc main_v3) := by
  after_results_simp

set_option maxHeartbeats 2000000 in
set_option maxRecDepth 100000 in
/-- `main_v11` is not written by the short stretches before region 0. -/
theorem tail0_v11 (Wp : Valuation τ sig (Elt Ideal)) :
    (StableHlo.after hostOps0_4 (StableHlo.after hostOps0_3 (StableHlo.after hostOps0_2 (StableHlo.after hostOps0_1 Wp)))) (Proc.devRef .tc main_v11) = Wp (Proc.devRef .tc main_v11) := by
  after_results_simp

set_option maxHeartbeats 2000000 in
set_option maxRecDepth 100000 in
/-- `main_arg2` is not written by the short stretches before region 0. -/
theorem tail0_arg2 (Wp : Valuation τ sig (Elt Ideal)) :
    (StableHlo.after hostOps0_4 (StableHlo.after hostOps0_3 (StableHlo.after hostOps0_2 (StableHlo.after hostOps0_1 Wp)))) (Proc.devRef .tc main_arg2) = Wp (Proc.devRef .tc main_arg2) := by
  after_results_simp

set_option maxHeartbeats 2000000 in
set_option maxRecDepth 100000 in
/-- `main_arg3` is not written by the short stretches before region 0. -/
theorem tail0_arg3 (Wp : Valuation τ sig (Elt Ideal)) :
    (StableHlo.after hostOps0_4 (StableHlo.after hostOps0_3 (StableHlo.after hostOps0_2 (StableHlo.after hostOps0_1 Wp)))) (Proc.devRef .tc main_arg3) = Wp (Proc.devRef .tc main_arg3) := by
  after_results_simp

set_option maxHeartbeats 2000000 in
set_option maxRecDepth 100000 in
/-- `main_arg5` is not written by the short stretches before region 0. -/
theorem tail0_arg5 (Wp : Valuation τ sig (Elt Ideal)) :
    (StableHlo.after hostOps0_4 (StableHlo.after hostOps0_3 (StableHlo.after hostOps0_2 (StableHlo.after hostOps0_1 Wp)))) (Proc.devRef .tc main_arg5) = Wp (Proc.devRef .tc main_arg5) := by
  after_results_simp

set_option maxHeartbeats 2000000 in
set_option maxRecDepth 100000 in
/-- `main_arg6` is not written by the short stretches before region 0. -/
theorem tail0_arg6 (Wp : Valuation τ sig (Elt Ideal)) :
    (StableHlo.after hostOps0_4 (StableHlo.after hostOps0_3 (StableHlo.after hostOps0_2 (StableHlo.after hostOps0_1 Wp)))) (Proc.devRef .tc main_arg6) = Wp (Proc.devRef .tc main_arg6) := by
  after_results_simp

set_option maxHeartbeats 2000000 in
set_option maxRecDepth 100000 in
/-- `main_arg7` is not written by the short stretches before region 0. -/
theorem tail0_arg7 (Wp : Valuation τ sig (Elt Ideal)) :
    (StableHlo.after hostOps0_4 (StableHlo.after hostOps0_3 (StableHlo.after hostOps0_2 (StableHlo.after hostOps0_1 Wp)))) (Proc.devRef .tc main_arg7) = Wp (Proc.devRef .tc main_arg7) := by
  after_results_simp

set_option maxHeartbeats 2000000 in
set_option maxRecDepth 100000 in
/-- `main_arg8` is not written by the short stretches before region 0. -/
theorem tail0_arg8 (Wp : Valuation τ sig (Elt Ideal)) :
    (StableHlo.after hostOps0_4 (StableHlo.after hostOps0_3 (StableHlo.after hostOps0_2 (StableHlo.after hostOps0_1 Wp)))) (Proc.devRef .tc main_arg8) = Wp (Proc.devRef .tc main_arg8) := by
  after_results_simp

set_option maxHeartbeats 1000000 in
set_option maxRecDepth 100000 in
/-- The first operand padded. -/
theorem tail1_v43 (Wp : Valuation τ sig (Elt Ideal)) :
    ((StableHlo.after hostOps1_4 (StableHlo.after hostOps1_3 (StableHlo.after hostOps1_2 (StableHlo.after hostOps1_1 Wp)))) (Proc.devRef .tc main_v43) : FVec Ideal S102400x128 .f32) = pad S102400x128 ![0, 0] ![2400, 0] ![0, 0] (Wp (Proc.devRef .tc main_v42) : Ht) (sitofp (F := Ideal) .f32 (Wp (Proc.devRef .tc main_c_10) : IVec S_ 32)) pads_S100000x128_S102400x128_024000_000 h_S_ := by
  after_results_simp
  try rfl

set_option maxHeartbeats 1000000 in
set_option maxRecDepth 100000 in
/-- The first layer's output padded. -/
theorem tail1_v44 (Wp : Valuation τ sig (Elt Ideal)) :
    ((StableHlo.after hostOps1_4 (StableHlo.after hostOps1_3 (StableHlo.after hostOps1_2 (StableHlo.after hostOps1_1 Wp)))) (Proc.devRef .tc main_v44) : FVec Ideal S102400x128 .f32) = pad S102400x128 ![0, 0] ![2400, 0] ![0, 0] (Wp (Proc.devRef .tc main_v29) : Ht) (sitofp (F := Ideal) .f32 (constantI S_ 32 0#32)) pads_S100000x128_S102400x128_024000_000 h_S_ := by
  after_results_simp
  try rfl

set_option maxHeartbeats 1000000 in
set_option maxRecDepth 100000 in
/-- The bias vector as a row. -/
theorem tail1_v45 (Wp : Valuation τ sig (Elt Ideal)) :
    ((StableHlo.after hostOps1_4 (StableHlo.after hostOps1_3 (StableHlo.after hostOps1_2 (StableHlo.after hostOps1_1 Wp)))) (Proc.devRef .tc main_v45) : FVec Ideal S1x64 .f32) = shapeCast S1x64 (Wp (Proc.devRef .tc main_arg7) : FVec Ideal S64 .f32) shapeCasts_S64_S1x64 := by
  after_results_simp
  try rfl

set_option maxHeartbeats 2000000 in
set_option maxRecDepth 100000 in
/-- `main_arg2` is not written by the short stretches before region 1. -/
theorem tail1_arg2 (Wp : Valuation τ sig (Elt Ideal)) :
    (StableHlo.after hostOps1_4 (StableHlo.after hostOps1_3 (StableHlo.after hostOps1_2 (StableHlo.after hostOps1_1 Wp)))) (Proc.devRef .tc main_arg2) = Wp (Proc.devRef .tc main_arg2) := by
  after_results_simp

set_option maxHeartbeats 2000000 in
set_option maxRecDepth 100000 in
/-- `main_arg6` is not written by the short stretches before region 1. -/
theorem tail1_arg6 (Wp : Valuation τ sig (Elt Ideal)) :
    (StableHlo.after hostOps1_4 (StableHlo.after hostOps1_3 (StableHlo.after hostOps1_2 (StableHlo.after hostOps1_1 Wp)))) (Proc.devRef .tc main_arg6) = Wp (Proc.devRef .tc main_arg6) := by
  after_results_simp

set_option maxHeartbeats 2000000 in
set_option maxRecDepth 100000 in
/-- `main_arg8` is not written by the short stretches before region 1. -/
theorem tail1_arg8 (Wp : Valuation τ sig (Elt Ideal)) :
    (StableHlo.after hostOps1_4 (StableHlo.after hostOps1_3 (StableHlo.after hostOps1_2 (StableHlo.after hostOps1_1 Wp)))) (Proc.devRef .tc main_arg8) = Wp (Proc.devRef .tc main_arg8) := by
  after_results_simp

set_option maxHeartbeats 1000000 in
set_option maxRecDepth 100000 in
/-- The first endpoints' rows padded. -/
theorem tail2_v66 (Wp : Valuation τ sig (Elt Ideal)) :
    ((StableHlo.after hostOps2_3 (StableHlo.after hostOps2_2 (StableHlo.after hostOps2_1 Wp))) (Proc.devRef .tc main_v66) : FVec Ideal S204800x64 .f32) = pad S204800x64 ![0, 0] ![4800, 0] ![0, 0] (Wp (Proc.devRef .tc main_v58) : FVec Ideal S200000x64 .f32) (sitofp (F := Ideal) .f32 (Wp (Proc.devRef .tc main_c_16) : IVec S_ 32)) pads_S200000x64_S204800x64_048000_000 h_S_ := by
  after_results_simp
  try rfl

set_option maxHeartbeats 1000000 in
set_option maxRecDepth 100000 in
/-- The second endpoints' rows padded. -/
theorem tail2_v67 (Wp : Valuation τ sig (Elt Ideal)) :
    ((StableHlo.after hostOps2_3 (StableHlo.after hostOps2_2 (StableHlo.after hostOps2_1 Wp))) (Proc.devRef .tc main_v67) : FVec Ideal S204800x64 .f32) = pad S204800x64 ![0, 0] ![4800, 0] ![0, 0] (Wp (Proc.devRef .tc main_v65) : FVec Ideal S200000x64 .f32) (sitofp (F := Ideal) .f32 (constantI S_ 32 0#32)) pads_S200000x64_S204800x64_048000_000 h_S_ := by
  after_results_simp
  try rfl

set_option maxHeartbeats 1000000 in
set_option maxRecDepth 100000 in
/-- The result: the decoder's column cut to the label edges and flattened. -/
theorem post_v70 (Wp : Valuation τ sig (Elt Ideal)) :
    ((StableHlo.after hostOps3 Wp) (Proc.devRef .tc main_v70) : FVec Ideal S200000 .f32) = shapeCast S200000 (extractStridedSlice S200000x1 ![0, 0] (Wp (Proc.devRef .tc main_v68) : FVec Ideal S204800x1 .f32) slices_S204800x1_S200000x1_0_0) shapeCasts_S200000x1_S200000 := by
  after_results_simp
  try rfl

end Cert.KernelIdeal.Hand

end
-- ==== Proof.HostCompose.lean ====
/-
  What each region finds in the buffers it reads, from the contents at the start of the host code before it.

  The two kinds of stretch of `HostReads` composed: a padded operand is the padding of what the long stretch computed.
-/
import proofs.«120249_j1305670058226_1_alg».proof.Proof.HostReads

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

/-! ## Before region 0 -/

/-- Region 0's first operand: the neighbour sums of the features, scaled by the reciprocal degrees, padded. -/
theorem pre0_v25 (Wp : Valuation τ sig (Elt Ideal)) :
    ((StableHlo.after hostOps0_4 (StableHlo.after hostOps0_3 (StableHlo.after hostOps0_2 (StableHlo.after hostOps0_1 (StableHlo.after hostOps0 Wp))))) (Proc.devRef .tc main_v25) : FVec Ideal S102400x128 .f32) = padRows (scaled (aggOf (Wp (Proc.devRef .tc main_arg0) : Ht) (srcOf (Wp (Proc.devRef .tc main_arg1) : Et)) (dstOf (Wp (Proc.devRef .tc main_arg1) : Et))) (recip (Wp (Proc.devRef .tc main_arg1) : Et))) := by
  refine (tail0_v25 (StableHlo.after hostOps0 Wp)).trans ?_
  rw [head0_v24 Wp, head0_c5 Wp]
  rfl

/-- Region 0's second operand: the features, padded. -/
theorem pre0_v26 (Wp : Valuation τ sig (Elt Ideal)) :
    ((StableHlo.after hostOps0_4 (StableHlo.after hostOps0_3 (StableHlo.after hostOps0_2 (StableHlo.after hostOps0_1 (StableHlo.after hostOps0 Wp))))) (Proc.devRef .tc main_v26) : FVec Ideal S102400x128 .f32) = padRows (Wp (Proc.devRef .tc main_arg0) : Ht) := by
  refine (tail0_v26 (StableHlo.after hostOps0 Wp)).trans ?_
  rw [head0_arg0 Wp]
  rfl

/-- Region 0's bias row: the bias vector reshaped. -/
theorem pre0_v27 (Wp : Valuation τ sig (Elt Ideal)) :
    ((StableHlo.after hostOps0_4 (StableHlo.after hostOps0_3 (StableHlo.after hostOps0_2 (StableHlo.after hostOps0_1 (StableHlo.after hostOps0 Wp))))) (Proc.devRef .tc main_v27) : FVec Ideal S1x128 .f32) = shapeCast S1x128 (Wp (Proc.devRef .tc main_arg4) : FVec Ideal S128 .f32) shapeCasts_S128_S1x128 := by
  refine (tail0_v27 (StableHlo.after hostOps0 Wp)).trans ?_
  rw [head0_arg4 Wp]

/-- The edges' sources. -/
theorem pre0_v1 (Wp : Valuation τ sig (Elt Ideal)) :
    ((StableHlo.after hostOps0_4 (StableHlo.after hostOps0_3 (StableHlo.after hostOps0_2 (StableHlo.after hostOps0_1 (StableHlo.after hostOps0 Wp))))) (Proc.devRef .tc main_v1) : IVec S600000 32) = srcOf (Wp (Proc.devRef .tc main_arg1) : Et) := (tail0_v1 (StableHlo.after hostOps0 Wp)).trans (head0_v1 Wp)

/-- The edges' destinations. -/
theorem pre0_v3 (Wp : Valuation τ sig (Elt Ideal)) :
    ((StableHlo.after hostOps0_4 (StableHlo.after hostOps0_3 (StableHlo.after hostOps0_2 (StableHlo.after hostOps0_1 (StableHlo.after hostOps0 Wp))))) (Proc.devRef .tc main_v3) : IVec S600000 32) = dstOf (Wp (Proc.devRef .tc main_arg1) : Et) := (tail0_v3 (StableHlo.after hostOps0 Wp)).trans (head0_v3 Wp)

/-- The reciprocal degrees. -/
theorem pre0_v11 (Wp : Valuation τ sig (Elt Ideal)) :
    ((StableHlo.after hostOps0_4 (StableHlo.after hostOps0_3 (StableHlo.after hostOps0_2 (StableHlo.after hostOps0_1 (StableHlo.after hostOps0 Wp))))) (Proc.devRef .tc main_v11) : FVec Ideal S100000 .f32) = recip (Wp (Proc.devRef .tc main_arg1) : Et) := (tail0_v11 (StableHlo.after hostOps0 Wp)).trans (head0_v11 Wp)

/-- Argument 2 is not written before region 0. -/
theorem pre0_arg2 (Wp : Valuation τ sig (Elt Ideal)) :
    (StableHlo.after hostOps0_4 (StableHlo.after hostOps0_3 (StableHlo.after hostOps0_2 (StableHlo.after hostOps0_1 (StableHlo.after hostOps0 Wp))))) (Proc.devRef .tc main_arg2) = Wp (Proc.devRef .tc main_arg2) := (tail0_arg2 (StableHlo.after hostOps0 Wp)).trans (head0_arg2 Wp)

/-- Argument 3 is not written before region 0. -/
theorem pre0_arg3 (Wp : Valuation τ sig (Elt Ideal)) :
    (StableHlo.after hostOps0_4 (StableHlo.after hostOps0_3 (StableHlo.after hostOps0_2 (StableHlo.after hostOps0_1 (StableHlo.after hostOps0 Wp))))) (Proc.devRef .tc main_arg3) = Wp (Proc.devRef .tc main_arg3) := (tail0_arg3 (StableHlo.after hostOps0 Wp)).trans (head0_arg3 Wp)

/-- Argument 5 is not written before region 0. -/
theorem pre0_arg5 (Wp : Valuation τ sig (Elt Ideal)) :
    (StableHlo.after hostOps0_4 (StableHlo.after hostOps0_3 (StableHlo.after hostOps0_2 (StableHlo.after hostOps0_1 (StableHlo.after hostOps0 Wp))))) (Proc.devRef .tc main_arg5) = Wp (Proc.devRef .tc main_arg5) := (tail0_arg5 (StableHlo.after hostOps0 Wp)).trans (head0_arg5 Wp)

/-- Argument 6 is not written before region 0. -/
theorem pre0_arg6 (Wp : Valuation τ sig (Elt Ideal)) :
    (StableHlo.after hostOps0_4 (StableHlo.after hostOps0_3 (StableHlo.after hostOps0_2 (StableHlo.after hostOps0_1 (StableHlo.after hostOps0 Wp))))) (Proc.devRef .tc main_arg6) = Wp (Proc.devRef .tc main_arg6) := (tail0_arg6 (StableHlo.after hostOps0 Wp)).trans (head0_arg6 Wp)

/-- Argument 7 is not written before region 0. -/
theorem pre0_arg7 (Wp : Valuation τ sig (Elt Ideal)) :
    (StableHlo.after hostOps0_4 (StableHlo.after hostOps0_3 (StableHlo.after hostOps0_2 (StableHlo.after hostOps0_1 (StableHlo.after hostOps0 Wp))))) (Proc.devRef .tc main_arg7) = Wp (Proc.devRef .tc main_arg7) := (tail0_arg7 (StableHlo.after hostOps0 Wp)).trans (head0_arg7 Wp)

/-- Argument 8 is not written before region 0. -/
theorem pre0_arg8 (Wp : Valuation τ sig (Elt Ideal)) :
    (StableHlo.after hostOps0_4 (StableHlo.after hostOps0_3 (StableHlo.after hostOps0_2 (StableHlo.after hostOps0_1 (StableHlo.after hostOps0 Wp))))) (Proc.devRef .tc main_arg8) = Wp (Proc.devRef .tc main_arg8) := (tail0_arg8 (StableHlo.after hostOps0 Wp)).trans (head0_arg8 Wp)

/-! ## Between regions 0 and 1 -/

/-- Region 1's first operand: the neighbour sums of the first layer's output, scaled, padded. -/
theorem pre1_v43 (Wp : Valuation τ sig (Elt Ideal)) :
    ((StableHlo.after hostOps1_4 (StableHlo.after hostOps1_3 (StableHlo.after hostOps1_2 (StableHlo.after hostOps1_1 (StableHlo.after hostOps1 Wp))))) (Proc.devRef .tc main_v43) : FVec Ideal S102400x128 .f32) = padRows (scaled (aggOf (topRows (Wp (Proc.devRef .tc main_v28) : FVec Ideal S102400x128 .f32)) (Wp (Proc.devRef .tc main_v1) : IVec S600000 32) (Wp (Proc.devRef .tc main_v3) : IVec S600000 32)) (Wp (Proc.devRef .tc main_v11) : FVec Ideal S100000 .f32)) := by
  refine (tail1_v43 (StableHlo.after hostOps1 Wp)).trans ?_
  rw [head1_v42 Wp, head1_c10 Wp]
  rfl

/-- Region 1's second operand: the first layer's output, padded. -/
theorem pre1_v44 (Wp : Valuation τ sig (Elt Ideal)) :
    ((StableHlo.after hostOps1_4 (StableHlo.after hostOps1_3 (StableHlo.after hostOps1_2 (StableHlo.after hostOps1_1 (StableHlo.after hostOps1 Wp))))) (Proc.devRef .tc main_v44) : FVec Ideal S102400x128 .f32) = padRows (topRows (Wp (Proc.devRef .tc main_v28) : FVec Ideal S102400x128 .f32)) := by
  refine (tail1_v44 (StableHlo.after hostOps1 Wp)).trans ?_
  rw [head1_v29 Wp]
  rfl

/-- Region 1's bias row. -/
theorem pre1_v45 (Wp : Valuation τ sig (Elt Ideal)) :
    ((StableHlo.after hostOps1_4 (StableHlo.after hostOps1_3 (StableHlo.after hostOps1_2 (StableHlo.after hostOps1_1 (StableHlo.after hostOps1 Wp))))) (Proc.devRef .tc main_v45) : FVec Ideal S1x64 .f32) = shapeCast S1x64 (Wp (Proc.devRef .tc main_arg7) : FVec Ideal S64 .f32) shapeCasts_S64_S1x64 := by
  refine (tail1_v45 (StableHlo.after hostOps1 Wp)).trans ?_
  rw [head1_arg7 Wp]

/-- Argument 2 is not written between regions 0 and 1. -/
theorem pre1_arg2 (Wp : Valuation τ sig (Elt Ideal)) :
    (StableHlo.after hostOps1_4 (StableHlo.after hostOps1_3 (StableHlo.after hostOps1_2 (StableHlo.after hostOps1_1 (StableHlo.after hostOps1 Wp))))) (Proc.devRef .tc main_arg2) = Wp (Proc.devRef .tc main_arg2) := (tail1_arg2 (StableHlo.after hostOps1 Wp)).trans (head1_arg2 Wp)

/-- Argument 6 is not written between regions 0 and 1. -/
theorem pre1_arg6 (Wp : Valuation τ sig (Elt Ideal)) :
    (StableHlo.after hostOps1_4 (StableHlo.after hostOps1_3 (StableHlo.after hostOps1_2 (StableHlo.after hostOps1_1 (StableHlo.after hostOps1 Wp))))) (Proc.devRef .tc main_arg6) = Wp (Proc.devRef .tc main_arg6) := (tail1_arg6 (StableHlo.after hostOps1 Wp)).trans (head1_arg6 Wp)

/-- Argument 8 is not written between regions 0 and 1. -/
theorem pre1_arg8 (Wp : Valuation τ sig (Elt Ideal)) :
    (StableHlo.after hostOps1_4 (StableHlo.after hostOps1_3 (StableHlo.after hostOps1_2 (StableHlo.after hostOps1_1 (StableHlo.after hostOps1 Wp))))) (Proc.devRef .tc main_arg8) = Wp (Proc.devRef .tc main_arg8) := (tail1_arg8 (StableHlo.after hostOps1 Wp)).trans (head1_arg8 Wp)

/-! ## Between regions 1 and 2 -/

/-- Region 2's first operand: the rows at the label edges' first endpoints, padded. -/
theorem pre2_v66 (Wp : Valuation τ sig (Elt Ideal)) :
    ((StableHlo.after hostOps2_3 (StableHlo.after hostOps2_2 (StableHlo.after hostOps2_1 (StableHlo.after hostOps2 Wp)))) (Proc.devRef .tc main_v66) : FVec Ideal S204800x64 .f32) = padEdges (rowsAt (topRows64 (Wp (Proc.devRef .tc main_v46) : FVec Ideal S102400x64 .f32)) (endOf0 (Wp (Proc.devRef .tc main_arg2) : Lt))) := by
  refine (tail2_v66 (StableHlo.after hostOps2 Wp)).trans ?_
  rw [head2_v58 Wp, head2_c16 Wp]
  rfl

/-- Region 2's second operand: the rows at the second endpoints, padded. -/
theorem pre2_v67 (Wp : Valuation τ sig (Elt Ideal)) :
    ((StableHlo.after hostOps2_3 (StableHlo.after hostOps2_2 (StableHlo.after hostOps2_1 (StableHlo.after hostOps2 Wp)))) (Proc.devRef .tc main_v67) : FVec Ideal S204800x64 .f32) = padEdges (rowsAt (topRows64 (Wp (Proc.devRef .tc main_v46) : FVec Ideal S102400x64 .f32)) (endOf1 (Wp (Proc.devRef .tc main_arg2) : Lt))) := by
  refine (tail2_v67 (StableHlo.after hostOps2 Wp)).trans ?_
  rw [head2_v65 Wp]
  rfl

end Cert.KernelIdeal.Hand

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«120249_j1305670058226_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.LibGatherScatterRows.lean ====
import Idealize.ShloMosaic.Lib.ValueIdx

/-!
# Gather and scatter of whole rows, and gather of flat entries

Three literal records of StableHLO gather / scatter dimension numbers over generic extents, with what the
operation reads or writes at an index: taking whole rows of a matrix, taking entries of a flat array, and
scattering whole rows into a matrix.
-/

noncomputable section

namespace Idealize.ShloMosaic.ValueIdx

open Idealize.ShloMosaic

/-! ## Scattering whole rows: operand `[N, C]`, scatter indices `[E, 1]`, updates `[E, C]` -/

section ScatterRows

/-- The dimension numbers for scattering rows: update window axis `1`, inserted window axis `0`, the single
    component of a scatter index names operand axis `0`, the index vector on axis `1`. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element `j` that lands on operand element `i` has its scatter index `idx[j₀, 0]`, read signed and
    not clamped, equal to the row `i₀`. -/
theorem scatter_rows_row {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowsScatterDims N E C wf).resultIdx? j idx = some i) :
    (idx (ix2 (j 0) ⟨0, Nat.one_pos⟩)).toInt = ((i 0).val : Int) := by
  unfold ScatterDims.resultIdx? at h
  split at h
  · rename_i hall
    have h0 : ((rowsScatterDims N E C wf).start j idx 0 + (rowsScatterDims N E C wf).window j 0).toNat = (i 0).val :=
      congrArg (fun f : (⟨2, ![N, C]⟩ : Shape).Idx => (f 0).val) (Option.some.inj h)
    have hw : (rowsScatterDims N E C wf).window j 0 = 0 := by
      unfold ScatterDims.window
      rw [dif_neg]
      simp [ScatterDims.sKept, Shape.kept, List.mem_filter]
    have hs : (rowsScatterDims N E C wf).start j idx 0 = (idx (ix2 (j 0) ⟨0, Nat.one_pos⟩)).toInt := by
      unfold ScatterDims.start
      rw [dif_pos (show (0 : Fin 2) ∈ (rowsScatterDims N E C wf).scatterDimsToOperandDims from
        List.mem_singleton.mpr rfl)]
      have hsi : (rowsScatterDims N E C wf).siIdx j
          ⟨List.idxOf (0 : Fin 2) (rowsScatterDims N E C wf).scatterDimsToOperandDims,
            List.idxOf_lt_length_iff.2 (List.mem_singleton.mpr rfl)⟩ = ix2 (j 0) ⟨0, Nat.one_pos⟩ := by
        funext b; refine Fin.ext ?_
        match b with
        | ⟨0, _⟩ => rfl
        | ⟨1, _⟩ => rfl
      rw [hsi]
      rfl
    have hnn := (hall 0).1
    rw [hs, hw] at hnn h0
    simp only [Nat.cast_zero, Int.add_zero] at hnn h0
    rw [← h0, Int.toNat_of_nonneg hnn]
  · exact absurd h (by simp)

end ScatterRows

/-! ## Taking whole rows: operand `[N, C]`, start indices `[E, 1]`, result `[E, C]` -/

section GatherRows
variable {α : Type}

/-- The dimension numbers for taking rows: offset axis `1`, collapsed operand axis `0`, the single component of a
    start index names operand axis `0`, the index vector on axis `1`, slices of one row by all `C` columns. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, c)` of the row gather is the operand at row `idx[e, 0]`, read signed and clamped into
    `[0, N − 1]`, and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGatherDims N E C wf) x idx (ix2 e c) =
      x (ix2 ⟨min (idx (ix2 e ⟨0, Nat.one_pos⟩)).toInt.toNat (N - 1), by omega⟩ c) := by
  have h0 : ((rowsGatherDims N E C wf).operandIdx (ix2 e c) idx (0 : Fin 2)).val =
      min (idx (ix2 e ⟨0, Nat.one_pos⟩)).toInt.toNat (N - 1) := by
    show (rowsGatherDims N E C wf).start (ix2 e c) idx 0 + (rowsGatherDims N E C wf).batchCoord (ix2 e c) 0
      + (rowsGatherDims N E C wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e c)
        ⟨List.idxOf (0 : Fin 2) (rowsGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : ((rowsGatherDims N E C wf).operandIdx (ix2 e c) idx (1 : Fin 2)).val = c.val := by
    show (rowsGatherDims N E C wf).start (ix2 e c) idx 1 + (rowsGatherDims N E C wf).batchCoord (ix2 e c) 1
      + (rowsGatherDims N E C wf).offCoord (ix2 e c) 1 = _
    have hst : (rowsGatherDims N E C wf).start (ix2 e c) idx (1 : Fin 2) = 0 := by
      unfold GatherDims.start
      rw [dif_neg (fun h => absurd (show (1 : Nat) = 0 from congrArg Fin.val (List.mem_singleton.mp h)) Nat.one_ne_zero)]
    have hk : (1 : Fin 2) ∈ (rowsGatherDims N E C wf).sKept :=
      (GatherDims.mem_sKept _ _).mpr ⟨(fun h => absurd (show (1 : Nat) = 0 from congrArg Fin.val (List.mem_singleton.mp h)) Nat.one_ne_zero), List.not_mem_nil⟩
    have hoff : (rowsGatherDims N E C wf).offCoord (ix2 e c) (1 : Fin 2) = c.val := by
      unfold GatherDims.offCoord
      rw [dif_pos hk]
      rfl
    rw [GatherDims.batchCoord_eq_zero _ _ _ List.not_mem_nil, hst, hoff, Nat.add_zero, Nat.zero_add]
  unfold Host.gather
  congr 1
  funext a
  refine Fin.ext ?_
  match a with
  | ⟨0, _⟩ => exact h0
  | ⟨1, _⟩ => exact h1

end GatherRows

/-! ## Taking entries of a flat array: operand `[N]`, start indices `[E, 1]`, result `[E]` -/

section GatherFlat
variable {α : Type}

/-- The dimension numbers for taking entries: no offset axis, collapsed operand axis `0`, the single component of
    a start index names operand axis `0`, the index vector on axis `1`, slices of one entry. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` of the flat gather is the operand at position `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) =
      x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e)
      ⟨List.idxOf (0 : Fin 1) (flatGatherDims N E wf).startIndexMap,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end GatherFlat

end Idealize.ShloMosaic.ValueIdx

end
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.LibDenseRows.lean ====
/-
  Dense layers on extended-real matrices indexed by literal rank-2 shapes, and their row-locality.

  * `mm a b`: rows times columns, entry `(p, q)` is `Σ_k a[p, k] · b[k, q]`; `dense x W b`: `x · W` plus the bias row `b` (a
    `[1, N]` matrix) added to every row; `silu z = z · logistic z`; `mlp x W₁ b₁ W₂ b₂ = dense (silu ∘ dense x W₁ b₁) W₂ b₂`;
    `row v`: a vector as a one-row matrix.
  * ROW-LOCALITY (`mm_rows`, `dense_rows`, `mlp_rows`, `mm_at`): row `p` of the result depends on row `p` of the left
    operand only — so a tile of rows is computed from the same tile of the operand, and a selection of rows may be
    taken before or after a product: `mm_gather_rows`, `(h · W)[r] = h[r] · W` for a row gather with any start indices.
  * A matrix-unit product into a zero accumulator (`matmul_eq_mm`) and the host's general product (`dotGeneral_eq_mm`,
    `host_dot_eq_mm`) are both `mm`; a kernel body's dense layer over a broadcast bias row is `dense` (`dense_vec`), its
    `x · logistic x` is `silu` (`silu_vec`); the host's dense layer with the bias vector broadcast twice is `dense … (row b)`
    (`host_dense`), jax's expansion `z · (1 / (1 + e^(−z)))` is `silu` (`host_silu`), a bias vector reshaped to one row is
    `row` (`shapeCast_row`). Generic extents throughout.
-/
import proofs.«120249_j1305670058226_1_alg».proof.Proof.LibDotGeneralEntry
import proofs.«120249_j1305670058226_1_alg».proof.Proof.LibGatherScatterRows
import proofs.«120249_j1305670058226_1_alg».proof.Proof.LibBroadcastEntry

noncomputable section

open scoped BigOperators

namespace Cert.Spec

open Idealize.ShloMosaic Idealize.ShloMosaic.ValueIdx

/-- An `M × N` matrix of extended reals, indexed as the printed programs index a rank-2 array. -/
abbrev Mat (M N : Nat) : Type := (⟨2, ![M, N]⟩ : Shape).Idx → EReal

/-- Rows times columns. -/
def mm {M K N : Nat} (a : Mat M K) (b : Mat K N) : Mat M N :=
  fun i => ∑ k : Fin K, a (ix2 (i 0) k) * b (ix2 k (i 1))

theorem mm_ix2 {M K N : Nat} (a : Mat M K) (b : Mat K N) (p : Fin M) (q : Fin N) :
    mm a b (ix2 p q) = ∑ k : Fin K, a (ix2 p k) * b (ix2 k q) := rfl

/-- The sigmoid-weighted unit. -/
def silu (z : EReal) : EReal := z * Ideal.logistic z

/-- A dense layer: the product plus a bias row. -/
def dense {M K N : Nat} (x : Mat M K) (W : Mat K N) (b : Mat 1 N) : Mat M N :=
  fun i => mm x W i + b (ix2 (0 : Fin 1) (i 1))

/-- Two dense layers with the sigmoid-weighted unit between them. -/
def mlp {M K H N : Nat} (x : Mat M K) (W₁ : Mat K H) (b₁ : Mat 1 H) (W₂ : Mat H N) (b₂ : Mat 1 N) : Mat M N :=
  dense (fun i => silu (dense x W₁ b₁ i)) W₂ b₂

/-- A vector laid out as a one-row matrix. -/
def row {N : Nat} (v : (⟨1, ![N]⟩ : Shape).Idx → EReal) : Mat 1 N := fun j => v (ix1 (j 1))

/-! ## Row-locality -/

theorem mm_rows {M M' K N : Nat} (a : Mat M K) (a' : Mat M' K) (b : Mat K N) (p : Fin M) (p' : Fin M') (q : Fin N)
    (h : ∀ k, a (ix2 p k) = a' (ix2 p' k)) : mm a b (ix2 p q) = mm a' b (ix2 p' q) := by
  rw [mm_ix2, mm_ix2]
  exact Finset.sum_congr rfl fun k _ => by rw [h k]

theorem dense_rows {M M' K N : Nat} (x : Mat M K) (x' : Mat M' K) (W : Mat K N) (b : Mat 1 N) (p : Fin M) (p' : Fin M')
    (q : Fin N) (h : ∀ k, x (ix2 p k) = x' (ix2 p' k)) : dense x W b (ix2 p q) = dense x' W b (ix2 p' q) := by
  show mm x W (ix2 p q) + _ = mm x' W (ix2 p' q) + _
  rw [mm_rows x x' W p p' q h]
  rfl

theorem mlp_rows {M M' K H N : Nat} (x : Mat M K) (x' : Mat M' K) (W₁ : Mat K H) (b₁ : Mat 1 H) (W₂ : Mat H N)
    (b₂ : Mat 1 N) (p : Fin M) (p' : Fin M') (q : Fin N) (h : ∀ k, x (ix2 p k) = x' (ix2 p' k)) :
    mlp x W₁ b₁ W₂ b₂ (ix2 p q) = mlp x' W₁ b₁ W₂ b₂ (ix2 p' q) :=
  dense_rows _ _ W₂ b₂ p p' q fun k => by
    show silu (dense x W₁ b₁ (ix2 p k)) = silu (dense x' W₁ b₁ (ix2 p' k))
    rw [dense_rows x x' W₁ b₁ p p' k h]

/-! ## Row-locality, between a tile's entry and the array's entry it sits at -/

theorem mm_at {B M K N : Nat} (xb : Mat B K) (x : Mat M K) (W : Mat K N) (j : (⟨2, ![B, N]⟩ : Shape).Idx)
    (i : (⟨2, ![M, N]⟩ : Shape).Idx) (hq : i 1 = j 1) (hx : ∀ k, xb (ix2 (j 0) k) = x (ix2 (i 0) k)) :
    mm xb W j = mm x W i := by
  obtain ⟨p, q, rfl⟩ : ∃ (p : Fin B) (q : Fin N), j = ix2 p q := ⟨j 0, j 1, eq_ix2 j⟩
  obtain ⟨p', q', rfl⟩ : ∃ (p' : Fin M) (q' : Fin N), i = ix2 p' q' := ⟨i 0, i 1, eq_ix2 i⟩
  have e : q' = q := hq
  subst e
  exact mm_rows xb x W p p' q' hx

/-! ## The two matrix products of the programs are `mm` -/

/-- The matrix unit's product of two matrices into the zero accumulator. -/
theorem matmul_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂) :
    FloatOps.matmul D prec a b (constant ⟨2, ![M, N]⟩ .f32 0x00000000#32) = mm a b := by
  funext i
  rw [eq_ix2 i]
  exact Ideal.matmul_rows_cols D hlb hln hlc hrb hrn hrc prec a b (i 0) (i 1)

/-- The host's general product of two matrices. -/
theorem dotGeneral_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁)
    (b : FVec Ideal ⟨2, ![K, N]⟩ φ₂) :
    FloatOps.dotGeneral D prec sched a b = mm a b := by
  funext i
  rw [eq_ix2 i]
  exact Ideal.dotGeneral_rows_cols D hlb hln hlc hrb hrn hrc prec sched a b (i 0) (i 1)

/-- The same, in the spelling a printed host line has. -/
theorem host_dot_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (a : FVec Ideal ⟨2, ![M, K]⟩ φ₁) (b : FVec Ideal ⟨2, ![K, N]⟩ φ₂) :
    Host.dotGeneral D none a b = mm a b :=
  dotGeneral_eq_mm D hlb hln hlc hrb hrn hrc none .single a b

/-! ## Selecting rows commutes with a product on the right -/

/-- Rows taken out of a product are the product of the rows taken: `(h · W)[r(e)] = (h[r(·)] · W)[e]`, whatever the
    row selection `r` the start indices denote (read signed, clamped into the table). -/
theorem mm_gather_rows {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (h : Mat N C) (W : Mat C C') (idx : IVec ⟨2, ![E, 1]⟩ w) :
    Host.gather (rowsGatherDims N E C' wf') (mm h W) idx = mm (Host.gather (rowsGatherDims N E C wf) h idx) W := by
  funext i
  obtain ⟨e, c, rfl⟩ : ∃ (e : Fin E) (c : Fin C'), i = ix2 e c := ⟨i 0, i 1, eq_ix2 i⟩
  rw [gather_rows_apply hN wf' (mm h W) idx e c, mm_ix2, mm_ix2]
  exact Finset.sum_congr rfl fun k _ => by rw [gather_rows_apply hN wf h idx e k]

/-! ## A kernel body's dense layer and its sigmoid-weighted unit, as whole tiles -/

/-- The matrix unit's product into the zero accumulator plus a bias row broadcast over the tile's rows. -/
theorem dense_vec {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) :
    addf (FloatOps.matmul D none x W (constant ⟨2, ![M, N]⟩ .f32 0x00000000#32)) (broadcastTo ⟨2, ![M, N]⟩ b hb)
      = dense x W b := by
  rw [matmul_eq_mm D hlb hln hlc hrb hrn hrc]
  funext i
  obtain ⟨p, q, rfl⟩ : ∃ (p : Fin M) (q : Fin N), i = ix2 p q := ⟨i 0, i 1, eq_ix2 i⟩
  show mm x W (ix2 p q) + broadcastTo ⟨2, ![M, N]⟩ b hb (ix2 p q) = mm x W (ix2 p q) + b (ix2 (0 : Fin 1) q)
  rw [broadcastTo_1b_ab_apply]

/-- A tile times its logistic, entry by entry. -/
theorem silu_vec {s : Shape} (z : FVec Ideal s .f32) : mulf z (logistic z) = fun i => silu (z i) := rfl

/-! ## The reference's spelling of the sigmoid-weighted unit and of a bias -/

/-- `1` as the programs write it. -/
theorem ofBits_one : Ideal.ofBits .f32 0x3F800000#32 = (1 : EReal) := by
  simp [Ideal.ofBits, Ideal.ieee, -EReal.coe_mul]; norm_num

/-- jax's expansion `z · (1 / (1 + e^(−z)))` on the host is the sigmoid-weighted unit. -/
theorem host_silu {s : Shape} (z : FVec Ideal s .f32) (h1 : (⟨0, ![]⟩ : Shape).BroadcastsInDim s ![]) :
    mulf z (Host.divf (broadcastInDim s ![] h1 (constant (F := Ideal) ⟨0, ![]⟩ .f32 0x3F800000#32))
      (addf (broadcastInDim s ![] h1 (constant (F := Ideal) ⟨0, ![]⟩ .f32 0x3F800000#32)) (Host.exp (Host.negf z))))
      = fun i => silu (z i) := by
  funext i
  have e1 : broadcastInDim s ![] h1 (constant (F := Ideal) ⟨0, ![]⟩ .f32 0x3F800000#32) i = (1 : EReal) := by
    rw [broadcastInDim_scalar_apply]
    exact ofBits_one
  show z i * Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(z i))) = silu (z i)
  rw [e1]
  rfl

/-- The host's dense layer: the general product plus the bias vector broadcast as a row over every row. -/
theorem host_dense {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D none x W) (broadcastInDim ⟨2, ![M, N]⟩ ![0, 1] h2 (broadcastInDim ⟨2, ![1, N]⟩ ![1] h1 b))
      = dense x W (row b) := by
  funext i
  show FloatOps.dotGeneral D none .single x W i + _ = mm x W i + row b (ix2 (0 : Fin 1) (i 1))
  rw [dotGeneral_eq_mm D hlb hln hlc hrb hrn hrc]
  refine congrArg (mm x W i + ·) ?_
  obtain ⟨p, q, rfl⟩ : ∃ (p : Fin M) (q : Fin N), i = ix2 p q := ⟨i 0, i 1, eq_ix2 i⟩
  rw [broadcastInDim_1b_ab_apply, broadcastInDim_b_1b_apply]
  rfl

/-- A bias vector reshaped to one row is that row. -/
theorem shapeCast_row {N : Nat} (b : (⟨1, ![N]⟩ : Shape).Idx → EReal) (h : (⟨1, ![N]⟩ : Shape).ShapeCasts ⟨2, ![1, N]⟩) :
    shapeCast ⟨2, ![1, N]⟩ b h = row b := by
  funext j
  obtain ⟨u, q, rfl⟩ : ∃ (u : Fin 1) (q : Fin N), j = ix2 u q := ⟨j 0, j 1, eq_ix2 j⟩
  rw [shapeCast_a_1a_apply]
  rfl

end Cert.Spec

end
-- ==== Proof.LibColumnLayout.lean ====
/-
  A vector `[a]` placed as the one column of `[a, 1]`, read at one entry: by a reshape (a shape cast) and by the
  host's `broadcast_in_dim` along `[0]`. Either way entry `(p, u)` is the vector's entry `p`, whatever the unit
  coordinate `u`. Generic extent and element type.
-/
import Idealize.ShloMosaic.Lib.ValueLayout
import Idealize.ShloMosaic.Lib.Pipeline.Value

namespace Idealize.ShloMosaic.ValueIdx

variable {α : Type}

/-- An `[a]` array cast to `[a, 1]` reads, at `(p, u)`, the operand at `p`: the row-major position of `(p, u)` is
    `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's placing of an `[a]` vector as the column of `[a, 1]` (along `[0]`) reads, at `(p, u)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

end Idealize.ShloMosaic.ValueIdx
-- ==== Proof.LibSageLayer.lean ====
/-
  One GraphSAGE layer on extended-real matrices, and the two spellings the programs give it.

  A layer takes the neighbour sums `S` (an `N × C` matrix), the in-degrees `d` (an `N × 1` column), the node features
  `x`, two weight matrices `Wl`, `Wr` (`C × C'`, already transposed) and a bias row `b`:

      sage S d x Wl b Wr = (S / max(d, 1)) · Wl + b + x · Wr,

  the quotient taken row by row (row `p` of `S` divided by `max(d[p], 1)`), the bias added to every row. Row `p` of the
  result depends on row `p` of `S`, `d` and `x` only (`sage_rows`, `sage_at`), so a tile of rows is computed from the same
  tile of the operands.

  * `sage_tile`: a tile as a kernel body writes it — the degree column clamped and broadcast over the columns, a
    quotient, two matrix-unit products into zero accumulators, the bias row broadcast over the rows.
  * `sage_host`: the whole array as the host writes it — the degree VECTOR clamped, placed as a column and broadcast,
    a quotient, two general products, the bias vector broadcast twice.
  * `relu`, in the two spellings of its zero; a vector reshaped to a column is `col`.
-/
import proofs.«120249_j1305670058226_1_alg».proof.Proof.LibDenseRows
import proofs.«120249_j1305670058226_1_alg».proof.Proof.LibColumnLayout

noncomputable section

open scoped BigOperators

namespace Cert.Spec

open Idealize.ShloMosaic Idealize.ShloMosaic.ValueIdx

/-- `1` and `0` as the programs write them. -/
abbrev one32 : EReal := Ideal.ofBits .f32 0x3F800000#32
abbrev zero32 : EReal := Ideal.ofBits .f32 0x00000000#32

/-- Each row of `S` divided by its clamped degree `max(d[p], 1)`. -/
def meanRows {N C : Nat} (S : Mat N C) (d : Mat N 1) : Mat N C :=
  fun i => Ideal.div (S i) (max (d (ix2 (i 0) (0 : Fin 1))) one32)

/-- One layer: the mean of the neighbours through `Wl`, plus the bias, plus the node itself through `Wr`. -/
def sage {N C C' : Nat} (S : Mat N C) (d : Mat N 1) (x : Mat N C) (Wl : Mat C C') (b : Mat 1 C') (Wr : Mat C C') :
    Mat N C' :=
  fun i => dense (meanRows S d) Wl b i + mm x Wr i

/-- The rectifier. -/
def relu (z : EReal) : EReal := max z zero32

/-- A vector laid out as a one-column matrix. -/
def col {N : Nat} (v : (⟨1, ![N]⟩ : Shape).Idx → EReal) : Mat N 1 := fun i => v (ix1 (i 0))

/-! ## Row-locality -/

theorem sage_rows {N N' C C' : Nat} (S : Mat N C) (S' : Mat N' C) (d : Mat N 1) (d' : Mat N' 1) (x : Mat N C)
    (x' : Mat N' C) (Wl : Mat C C') (b : Mat 1 C') (Wr : Mat C C') (p : Fin N) (p' : Fin N') (q : Fin C')
    (hS : ∀ k, S (ix2 p k) = S' (ix2 p' k)) (hd : d (ix2 p (0 : Fin 1)) = d' (ix2 p' (0 : Fin 1)))
    (hx : ∀ k, x (ix2 p k) = x' (ix2 p' k)) :
    sage S d x Wl b Wr (ix2 p q) = sage S' d' x' Wl b Wr (ix2 p' q) := by
  show dense (meanRows S d) Wl b (ix2 p q) + mm x Wr (ix2 p q)
      = dense (meanRows S' d') Wl b (ix2 p' q) + mm x' Wr (ix2 p' q)
  rw [dense_rows (meanRows S d) (meanRows S' d') Wl b p p' q (fun k => by
        show Ideal.div (S (ix2 p k)) (max (d (ix2 p (0 : Fin 1))) one32)
          = Ideal.div (S' (ix2 p' k)) (max (d' (ix2 p' (0 : Fin 1))) one32)
        rw [hS k, hd]),
    mm_rows x x' Wr p p' q hx]

/-- Between a tile's entry and the array's entry it sits at. -/
theorem sage_at {B N C C' : Nat} (Sb : Mat B C) (db : Mat B 1) (xb : Mat B C) (S : Mat N C) (d : Mat N 1) (x : Mat N C)
    (Wl : Mat C C') (b : Mat 1 C') (Wr : Mat C C') (j : (⟨2, ![B, C']⟩ : Shape).Idx) (i : (⟨2, ![N, C']⟩ : Shape).Idx)
    (hq : i 1 = j 1) (hS : ∀ k, Sb (ix2 (j 0) k) = S (ix2 (i 0) k))
    (hd : db (ix2 (j 0) (0 : Fin 1)) = d (ix2 (i 0) (0 : Fin 1))) (hx : ∀ k, xb (ix2 (j 0) k) = x (ix2 (i 0) k)) :
    sage Sb db xb Wl b Wr j = sage S d x Wl b Wr i := by
  obtain ⟨p, q, rfl⟩ : ∃ (p : Fin B) (q : Fin C'), j = ix2 p q := ⟨j 0, j 1, eq_ix2 j⟩
  obtain ⟨p', q', rfl⟩ : ∃ (p' : Fin N) (q' : Fin C'), i = ix2 p' q' := ⟨i 0, i 1, eq_ix2 i⟩
  have e : q' = q := hq
  subst e
  exact sage_rows Sb S db d xb x Wl b Wr p p' q' hS hd hx

/-- The same for a dense layer alone. -/
theorem dense_at {B N K C' : Nat} (xb : Mat B K) (x : Mat N K) (W : Mat K C') (b : Mat 1 C')
    (j : (⟨2, ![B, C']⟩ : Shape).Idx) (i : (⟨2, ![N, C']⟩ : Shape).Idx) (hq : i 1 = j 1)
    (hx : ∀ k, xb (ix2 (j 0) k) = x (ix2 (i 0) k)) : dense xb W b j = dense x W b i := by
  obtain ⟨p, q, rfl⟩ : ∃ (p : Fin B) (q : Fin C'), j = ix2 p q := ⟨j 0, j 1, eq_ix2 j⟩
  obtain ⟨p', q', rfl⟩ : ∃ (p' : Fin N) (q' : Fin C'), i = ix2 p' q' := ⟨i 0, i 1, eq_ix2 i⟩
  have e : q' = q := hq
  subst e
  exact dense_rows xb x W b p p' q' hx

/-! ## A kernel body's tile -/

/-- The clamped degree column broadcast over the columns divides the sums row by row. -/
theorem divf_column {M K : Nat} (S : FVec Ideal ⟨2, ![M, K]⟩ .f32) (d : FVec Ideal ⟨2, ![M, 1]⟩ .f32)
    (hd : (⟨2, ![M, 1]⟩ : Shape).Broadcasts ⟨2, ![M, K]⟩) :
    divf S (broadcastTo ⟨2, ![M, K]⟩ (maximumf d (broadcast ⟨2, ![M, 1]⟩ (Scalar.ofBits (F := Ideal) .f32 0x3F800000#32))) hd)
      = meanRows S d := by
  funext i
  obtain ⟨p, k, rfl⟩ : ∃ (p : Fin M) (k : Fin K), i = ix2 p k := ⟨i 0, i 1, eq_ix2 i⟩
  rw [divf_apply, broadcastTo_a1_ab_apply]
  rfl

/-- A tile of a layer as a kernel body computes it. -/
theorem sage_tile {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (S x : FVec Ideal ⟨2, ![M, K]⟩ .f32) (d : FVec Ideal ⟨2, ![M, 1]⟩ .f32) (Wl Wr : FVec Ideal ⟨2, ![K, N]⟩ .bf16)
    (b : FVec Ideal ⟨2, ![1, N]⟩ .f32) (hd : (⟨2, ![M, 1]⟩ : Shape).Broadcasts ⟨2, ![M, K]⟩)
    (hb : (⟨2, ![1, N]⟩ : Shape).Broadcasts ⟨2, ![M, N]⟩) (hbits : FTy.bf16.bits < FTy.f32.bits) :
    addf (addf (FloatOps.matmul D none
        (truncf .bf16 (divf S (broadcastTo ⟨2, ![M, K]⟩ (maximumf d (broadcast ⟨2, ![M, 1]⟩ (Scalar.ofBits (F := Ideal) .f32 0x3F800000#32))) hd)) hbits)
        Wl (constant ⟨2, ![M, N]⟩ .f32 0x00000000#32)) (broadcastTo ⟨2, ![M, N]⟩ b hb))
      (FloatOps.matmul D none (truncf .bf16 x hbits) Wr (constant ⟨2, ![M, N]⟩ .f32 0x00000000#32))
      = sage S d x Wl b Wr := by
  rw [divf_column S d hd]
  show addf (addf (FloatOps.matmul D none (meanRows S d : FVec Ideal ⟨2, ![M, K]⟩ .f32) Wl (constant ⟨2, ![M, N]⟩ .f32 0x00000000#32))
        (broadcastTo ⟨2, ![M, N]⟩ b hb))
      (FloatOps.matmul D none x Wr (constant ⟨2, ![M, N]⟩ .f32 0x00000000#32)) = _
  rw [dense_vec D hlb hln hlc hrb hrn hrc, matmul_eq_mm D hlb hln hlc hrb hrn hrc]
  rfl

/-- The rectifier over a tile, the zero splat from a scalar. -/
theorem relu_tile {s : Shape} (z : FVec Ideal s .f32) :
    maximumf z (broadcast s (Scalar.ofBits (F := Ideal) .f32 0x00000000#32)) = fun i => relu (z i) := rfl

/-! ## The host's whole array -/

/-- The clamped degree vector, placed as a column and broadcast over the columns, divides the sums row by row. -/
theorem hostDivf_column {N C : Nat} (S : FVec Ideal ⟨2, ![N, C]⟩ .f32) (dv : FVec Ideal ⟨1, ![N]⟩ .f32)
    (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, C]⟩ ![0, 1]) :
    Host.divf S (broadcastInDim ⟨2, ![N, C]⟩ ![0, 1] h2 (broadcastInDim ⟨2, ![N, 1]⟩ ![0] h1
        (maximumf dv (broadcastInDim ⟨1, ![N]⟩ ![] h0 (constant (F := Ideal) ⟨0, ![]⟩ .f32 0x3F800000#32)))))
      = meanRows S (col dv) := by
  funext i
  obtain ⟨p, k, rfl⟩ : ∃ (p : Fin N) (k : Fin C), i = ix2 p k := ⟨i 0, i 1, eq_ix2 i⟩
  show Ideal.div (S (ix2 p k)) _ = Ideal.div (S (ix2 p k)) (max (dv (ix1 p)) one32)
  rw [broadcastInDim_a1_ab_apply, broadcastInDim_a_a1_apply, maximumf_apply, broadcastInDim_scalar_apply]
  rfl

/-- A layer as the host computes it. -/
theorem sage_host {N C C' : Nat} (D : DotDims ⟨2, ![N, C]⟩ ⟨2, ![C, C']⟩ ⟨2, ![N, C']⟩)
    (hlb : D.lhsBatch = []) (hln : D.lhsNonContracting = [0]) (hlc : D.lhsContracting = [1])
    (hrb : D.rhsBatch = []) (hrn : D.rhsNonContracting = [1]) (hrc : D.rhsContracting = [0])
    (S x : FVec Ideal ⟨2, ![N, C]⟩ .f32) (dv : FVec Ideal ⟨1, ![N]⟩ .f32) (Wl Wr : FVec Ideal ⟨2, ![C, C']⟩ .f32)
    (b : FVec Ideal ⟨1, ![C']⟩ .f32)
    (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, C]⟩ ![0, 1])
    (h3 : (⟨1, ![C']⟩ : Shape).BroadcastsInDim ⟨2, ![1, C']⟩ ![1])
    (h4 : (⟨2, ![1, C']⟩ : Shape).BroadcastsInDim ⟨2, ![N, C']⟩ ![0, 1]) :
    addf (addf (Host.dotGeneral D none
          (Host.divf S (broadcastInDim ⟨2, ![N, C]⟩ ![0, 1] h2 (broadcastInDim ⟨2, ![N, 1]⟩ ![0] h1
            (maximumf dv (broadcastInDim ⟨1, ![N]⟩ ![] h0 (constant (F := Ideal) ⟨0, ![]⟩ .f32 0x3F800000#32)))))) Wl)
        (broadcastInDim ⟨2, ![N, C']⟩ ![0, 1] h4 (broadcastInDim ⟨2, ![1, C']⟩ ![1] h3 b)))
      (Host.dotGeneral D none x Wr)
      = sage S (col dv) x Wl (row b) Wr := by
  rw [hostDivf_column S dv h0 h1 h2, host_dense D hlb hln hlc hrb hrn hrc, host_dot_eq_mm D hlb hln hlc hrb hrn hrc]
  rfl

/-- The rectifier over an array, the zero a broadcast scalar constant. -/
theorem relu_host {s : Shape} (z : FVec Ideal s .f32) (h : (⟨0, ![]⟩ : Shape).BroadcastsInDim s ![]) :
    maximumf z (broadcastInDim s ![] h (constant (F := Ideal) ⟨0, ![]⟩ .f32 0x00000000#32)) = fun i => relu (z i) := by
  funext i
  rw [maximumf_apply, broadcastInDim_scalar_apply]
  rfl

/-- A vector reshaped to one column is that column. -/
theorem shapeCast_col {N : Nat} (v : (⟨1, ![N]⟩ : Shape).Idx → EReal) (h : (⟨1, ![N]⟩ : Shape).ShapeCasts ⟨2, ![N, 1]⟩) :
    shapeCast ⟨2, ![N, 1]⟩ v h = col v := by
  funext j
  obtain ⟨p, u, rfl⟩ : ∃ (p : Fin N) (u : Fin 1), j = ix2 p u := ⟨j 0, j 1, eq_ix2 j⟩
  rw [shapeCast_a_a1_apply]
  rfl

end Cert.Spec

end
-- ==== Proof.LibSageRecip.lean ====
/-
  The two spellings of a GraphSAGE layer with mean aggregation, and of the edge decoder.

  With neighbour sums `S` (an `N × C` matrix), in-degrees `d`, node features `f`, weights `Wl`, `Wr` (`C' × C`, used
  transposed) and a bias row `b`, the layer is

      (S / max(d, 1)) · Wlᵀ + b + f · Wrᵀ          (`sage S d f (tr Wl) b (tr Wr)`).

  One program divides the sums by the clamped degree; the other multiplies them by the reciprocal `1 / max(d, 1)`,
  computed once, and adds the bias last:

      ((S · (1 / max(d, 1))) · Wlᵀ + f · Wrᵀ) + b     (`klayer` of the scaled sums).

  On the extended reals `s / c = s · (1 / c)` for every `c ≠ 0` (both are `s · c⁻¹`), and `max(d, 1) ≥ 1` is never
  zero, so the two agree entry by entry with no finiteness assumption; the bias moves by commutativity of the sum.
  Row `p` of either depends on row `p` of the operands only, so rows of zero padding appended below and cut off
  afterwards change nothing.

  The decoder is the row-wise dot product `out[e] = 0 + Σ_k P[e, k] · Q[e, k]`.
-/
import proofs.«120249_j1305670058226_1_alg».proof.Proof.LibSageLayer
import Idealize.ShloMosaic.Lib.ValueLayout
import Idealize.ShloMosaic.PureOps.Ideal.Laws

noncomputable section

open scoped BigOperators

namespace Cert.Spec

open Idealize.ShloMosaic Idealize.ShloMosaic.ValueIdx

/-- A matrix transposed. -/
def tr {A B : Nat} (W : Mat A B) : Mat B A := fun i => W (ix2 (i 1) (i 0))

theorem tr_ix2 {A B : Nat} (W : Mat A B) (k : Fin B) (q : Fin A) : tr W (ix2 k q) = W (ix2 q k) := rfl

/-- The layer with both products first and the bias last, on operands already scaled. -/
def klayer {N C C' : Nat} (A X : Mat N C) (Wl Wr : Mat C' C) (b : Mat 1 C') : Mat N C' :=
  fun i => (mm A (tr Wl) i + mm X (tr Wr) i) + b (ix2 (0 : Fin 1) (i 1))

theorem klayer_ix2 {N C C' : Nat} (A X : Mat N C) (Wl Wr : Mat C' C) (b : Mat 1 C') (p : Fin N) (q : Fin C') :
    klayer A X Wl Wr b (ix2 p q) = (mm A (tr Wl) (ix2 p q) + mm X (tr Wr) (ix2 p q)) + b (ix2 (0 : Fin 1) q) := rfl

/-- Row-locality of `klayer`. -/
theorem klayer_rows {N N' C C' : Nat} (A X : Mat N C) (A' X' : Mat N' C) (Wl Wr : Mat C' C) (b : Mat 1 C')
    (p : Fin N) (p' : Fin N') (q : Fin C') (hA : ∀ k, A (ix2 p k) = A' (ix2 p' k)) (hX : ∀ k, X (ix2 p k) = X' (ix2 p' k)) :
    klayer A X Wl Wr b (ix2 p q) = klayer A' X' Wl Wr b (ix2 p' q) := by
  rw [klayer_ix2, klayer_ix2, mm_rows A A' (tr Wl) p p' q hA, mm_rows X X' (tr Wr) p p' q hX]

/-- Between a tile's entry and the array's entry it sits at. -/
theorem klayer_at {B N C C' : Nat} (Ab Xb : Mat B C) (A X : Mat N C) (Wl Wr Wl' Wr' : Mat C' C) (b b' : Mat 1 C')
    (j : (⟨2, ![B, C']⟩ : Shape).Idx) (i : (⟨2, ![N, C']⟩ : Shape).Idx) (hq : i 1 = j 1)
    (hA : ∀ k, Ab (ix2 (j 0) k) = A (ix2 (i 0) k)) (hX : ∀ k, Xb (ix2 (j 0) k) = X (ix2 (i 0) k))
    (hWl : Wl = Wl') (hWr : Wr = Wr') (hb : b = b') :
    klayer Ab Xb Wl Wr b j = klayer A X Wl' Wr' b' i := by
  subst hWl hWr hb
  obtain ⟨p, q, rfl⟩ : ∃ (p : Fin B) (q : Fin C'), j = ix2 p q := ⟨j 0, j 1, eq_ix2 j⟩
  obtain ⟨p', q', rfl⟩ : ∃ (p' : Fin N) (q' : Fin C'), i = ix2 p' q' := ⟨i 0, i 1, eq_ix2 i⟩
  have e : q' = q := hq
  subst e
  exact klayer_rows Ab Xb A X Wl Wr b p p' q' hA hX

/-- Division by a nonzero extended real is the product with its reciprocal. -/
theorem div_eq_mul_one_div (s c : EReal) (hc : c ≠ 0) : Ideal.div s c = s * Ideal.div 1 c := by
  unfold Ideal.div
  rw [if_neg hc, if_neg hc, one_mul]

/-- The clamped degree is never zero. -/
theorem clamp_ne_zero (d : EReal) : max d one32 ≠ 0 := by
  have h1 : one32 = (1 : EReal) := ofBits_one
  rw [h1]
  exact ne_of_gt (lt_of_lt_of_le zero_lt_one (le_max_right d 1))

/-- The reciprocal spelling of the mean: `s · (1 / max(d, 1)) = s / max(d, 1)`. -/
theorem mul_recip_clamp (s d : EReal) : s * Ideal.div one32 (max d one32) = Ideal.div s (max d one32) := by
  rw [div_eq_mul_one_div s _ (clamp_ne_zero d)]
  have h1 : one32 = (1 : EReal) := ofBits_one
  rw [h1]

/-- THE BRIDGE, at one entry: the layer on sums scaled by the reciprocal of the clamped degree (rows possibly sitting
    in a taller, padded array) is the layer that divides. -/
theorem klayer_eq_sage {N N' C C' : Nat} (S f : Mat N C) (d : Mat N 1) (Wl Wr : Mat C' C) (b : Mat 1 C')
    (A X : Mat N' C) (p : Fin N) (p' : Fin N') (q : Fin C')
    (hA : ∀ k, A (ix2 p' k) = S (ix2 p k) * Ideal.div one32 (max (d (ix2 p (0 : Fin 1))) one32))
    (hX : ∀ k, X (ix2 p' k) = f (ix2 p k)) :
    klayer A X Wl Wr b (ix2 p' q) = sage S d f (tr Wl) b (tr Wr) (ix2 p q) := by
  rw [klayer_ix2]
  show _ = (mm (meanRows S d) (tr Wl) (ix2 p q) + b (ix2 (0 : Fin 1) q)) + mm f (tr Wr) (ix2 p q)
  rw [mm_rows A (meanRows S d) (tr Wl) p' p q (fun k => by
        rw [hA k, mul_recip_clamp]; rfl),
    mm_rows X f (tr Wr) p' p q hX]
  exact add_right_comm _ _ _

/-- The decoder: row-wise dot products, from the zero the programs write. -/
def rowdot {N C : Nat} (P Q : Mat N C) : Mat N 1 :=
  fun i => zero32 + ∑ k : Fin C, P (ix2 (i 0) k) * Q (ix2 (i 0) k)

theorem rowdot_rows {N N' C : Nat} (P Q : Mat N C) (P' Q' : Mat N' C) (p : Fin N) (p' : Fin N') (u u' : Fin 1)
    (hP : ∀ k, P (ix2 p k) = P' (ix2 p' k)) (hQ : ∀ k, Q (ix2 p k) = Q' (ix2 p' k)) :
    rowdot P Q (ix2 p u) = rowdot P' Q' (ix2 p' u') := by
  show zero32 + ∑ k : Fin C, P (ix2 p k) * Q (ix2 p k) = zero32 + ∑ k : Fin C, P' (ix2 p' k) * Q' (ix2 p' k)
  exact congrArg (zero32 + ·) (Finset.sum_congr rfl fun k _ => by rw [hP k, hQ k])

/-- Between a tile's entry and the array's entry it sits at. -/
theorem rowdot_at {B N C : Nat} (Pb Qb : Mat B C) (P Q : Mat N C)
    (j : (⟨2, ![B, 1]⟩ : Shape).Idx) (i : (⟨2, ![N, 1]⟩ : Shape).Idx)
    (hP : ∀ k, Pb (ix2 (j 0) k) = P (ix2 (i 0) k)) (hQ : ∀ k, Qb (ix2 (j 0) k) = Q (ix2 (i 0) k)) :
    rowdot Pb Qb j = rowdot P Q i := by
  obtain ⟨p, u, rfl⟩ : ∃ (p : Fin B) (u : Fin 1), j = ix2 p u := ⟨j 0, j 1, eq_ix2 j⟩
  obtain ⟨p', u', rfl⟩ : ∃ (p' : Fin N) (u' : Fin 1), i = ix2 p' u' := ⟨i 0, i 1, eq_ix2 i⟩
  exact rowdot_rows Pb Qb P Q p p' u u' hP hQ

/-! ## The kernel bodies' tiles -/

/-- A tile of the layer as a kernel body computes it: the weights transposed in the body, two matrix-unit products into
    zero accumulators added, then the bias row broadcast over the rows. -/
theorem klayer_tile {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (a x : FVec Ideal ⟨2, ![M, K]⟩ .f32) (wl wr : FVec Ideal ⟨2, ![N, K]⟩ .f32) (b : FVec Ideal ⟨2, ![1, N]⟩ .f32)
    (hT : (⟨2, ![N, K]⟩ : Shape).Transposes [1, 0] ⟨2, ![K, N]⟩)
    (hb : (⟨2, ![1, N]⟩ : Shape).Broadcasts ⟨2, ![M, N]⟩) :
    addf (addf (FloatOps.matmul D none a (transpose ⟨2, ![K, N]⟩ [1, 0] wl hT) (constant ⟨2, ![M, N]⟩ .f32 0x00000000#32))
               (FloatOps.matmul D none x (transpose ⟨2, ![K, N]⟩ [1, 0] wr hT) (constant ⟨2, ![M, N]⟩ .f32 0x00000000#32)))
         (broadcastTo ⟨2, ![M, N]⟩ b hb)
      = klayer a x wl wr b := by
  have eT : ∀ w : FVec Ideal ⟨2, ![N, K]⟩ .f32, transpose ⟨2, ![K, N]⟩ [1, 0] w hT = tr w := fun w => by
    funext i
    obtain ⟨k, q, rfl⟩ : ∃ (k : Fin K) (q : Fin N), i = ix2 k q := ⟨i 0, i 1, eq_ix2 i⟩
    rw [transpose_ix2_apply]
    rfl
  rw [eT wl, eT wr]
  rw [matmul_eq_mm D hlb hln hlc hrb hrn hrc none a (tr wl : FVec Ideal ⟨2, ![K, N]⟩ .f32),
    matmul_eq_mm D hlb hln hlc hrb hrn hrc none x (tr wr : FVec Ideal ⟨2, ![K, N]⟩ .f32)]
  funext i
  obtain ⟨p, q, rfl⟩ : ∃ (p : Fin M) (q : Fin N), i = ix2 p q := ⟨i 0, i 1, eq_ix2 i⟩
  show (mm a (tr wl) (ix2 p q) + mm x (tr wr) (ix2 p q)) + broadcastTo ⟨2, ![M, N]⟩ b hb (ix2 p q) = _
  rw [broadcastTo_1b_ab_apply]
  rfl

/-- A tile of the decoder as its kernel body computes it: the lane sum of the products, laid out as a column. -/
theorem rowdot_tile {M K : Nat} (a b : FVec Ideal ⟨2, ![M, K]⟩ .f32)
    (hR : (⟨2, ![M, K]⟩ : Shape).Reduces [1] ⟨1, ![M]⟩) (hφ : FKind.Formats .f32)
    (hacc : (0x00000000#32 : BitVec FTy.f32.bits) = FKind.add.neutral .f32 hφ)
    (hC : (⟨1, ![M]⟩ : Shape).ShapeCasts ⟨2, ![M, 1]⟩) :
    shapeCast ⟨2, ![M, 1]⟩ (multiReduction .add [1] ⟨1, ![M]⟩ (mulf a b) 0x00000000#32 hR hφ hacc) hC
      = fun i => ∑ k : Fin K, a (ix2 (i 0) k) * b (ix2 (i 0) k) := by
  funext i
  obtain ⟨p, u, rfl⟩ : ∃ (p : Fin M) (u : Fin 1), i = ix2 p u := ⟨i 0, i 1, eq_ix2 i⟩
  rw [shapeCast_a_a1_apply, Ideal.multiReduction_add_single]
  refine Finset.sum_congr rfl fun k _ => ?_
  have e : hR.lift (ix1 p) k = ix2 p k := by
    funext ax
    match ax with
    | ⟨0, _⟩ => rfl
    | ⟨1, _⟩ => rfl
  rw [e]
  rfl

end Cert.Spec

end
-- ==== Proof.HostEntries.lean ====
/-
  The host-side stages read at one entry.

  Padding below and cutting the padding off again leave the first rows where they were; scaling a matrix of sums by a
  per-node factor multiplies row `p` by the factor at `p`; the reciprocal degree at `p` is `1 / max(cnt[p], 1)`; the
  final flattening of the decoder's column reads the column's entry.
-/
import proofs.«120249_j1305670058226_1_alg».proof.Proof.HostDefs
import proofs.«120249_j1305670058226_1_alg».proof.Proof.LibSageRecip
import Idealize.ShloMosaic.Lib.KernelVsHost
import Idealize.ShloMosaic.Lib.Pipeline.Value

set_option maxRecDepth 16384

noncomputable section

open Idealize.ShloMosaic Idealize.ShloMosaic.ValueIdx

namespace Cert.KernelIdeal.Hand

open Cert.KernelIdeal Cert.KernelIdeal.Gen Cert.Spec

/-- A node's row in the padded array. -/
def up (p : Fin 100000) : Fin 102400 := ⟨p.val, by have := p.isLt; omega⟩

/-- A label edge's row in the padded array. -/
def upE (e : Fin 200000) : Fin 204800 := ⟨e.val, by have := e.isLt; omega⟩

theorem padRows_apply (A : Ht) (p : Fin 100000) (k : Fin 128) : padRows A (ix2 (up p) k) = A (ix2 p k) := by
  unfold padRows
  refine pad_apply_of_inside _ _ _ A zs _ _ (ix2 (up p) k) (ix2 p k) fun a => ?_
  match a with
  | ⟨0, _⟩ => show p.val = 0 + p.val * (0 + 1); omega
  | ⟨1, _⟩ => show k.val = 0 + k.val * (0 + 1); omega

theorem padEdges_apply (A : FVec Ideal S200000x64 .f32) (e : Fin 200000) (k : Fin 64) :
    padEdges A (ix2 (upE e) k) = A (ix2 e k) := by
  unfold padEdges
  refine pad_apply_of_inside _ _ _ A zs _ _ (ix2 (upE e) k) (ix2 e k) fun a => ?_
  match a with
  | ⟨0, _⟩ => show e.val = 0 + e.val * (0 + 1); omega
  | ⟨1, _⟩ => show k.val = 0 + k.val * (0 + 1); omega

theorem topRows_apply (A : FVec Ideal S102400x128 .f32) (p : Fin 100000) (q : Fin 128) :
    topRows A (ix2 p q) = A (ix2 (up p) q) := by
  unfold topRows
  exact extractStridedSlice_apply ![0, 0] A slices_S102400x128_S100000x128_0_0 (ix2 p q) (ix2 (up p) q) (fun a => match a with
    | ⟨0, _⟩ => by show p.val = 0 + p.val; omega
    | ⟨1, _⟩ => by show q.val = 0 + q.val; omega)

theorem topRows64_apply (A : FVec Ideal S102400x64 .f32) (p : Fin 100000) (q : Fin 64) :
    topRows64 A (ix2 p q) = A (ix2 (up p) q) := by
  unfold topRows64
  exact extractStridedSlice_apply ![0, 0] A slices_S102400x64_S100000x64_0_0 (ix2 p q) (ix2 (up p) q) (fun a => match a with
    | ⟨0, _⟩ => by show p.val = 0 + p.val; omega
    | ⟨1, _⟩ => by show q.val = 0 + q.val; omega)

theorem scaled_apply (S : Ht) (r : FVec Ideal S100000 .f32) (p : Fin 100000) (k : Fin 128) :
    scaled S r (ix2 p k) = S (ix2 p k) * r (ix1 p) := by
  unfold scaled
  rw [mulf_apply, broadcastInDim_a1_ab_apply, broadcastInDim_a_a1_apply]

theorem recip_apply (ei : Et) (p : Fin 100000) :
    recip ei (ix1 p) = Ideal.div one32 (max (cntOf ei (ix1 p)) one32) := by
  unfold recip
  simp only [Host.divf]
  rw [Ideal.hostDivf_def, broadcastInDim_scalar_apply, maximumf_apply, broadcastInDim_scalar_apply]
  rfl

/-- The decoder's column, cut to the label edges and flattened, read at an edge. -/
theorem flat_apply (X : FVec Ideal S204800x1 .f32) (e : Fin 200000) :
    shapeCast S200000 (extractStridedSlice S200000x1 ![0, 0] X slices_S204800x1_S200000x1_0_0) shapeCasts_S200000x1_S200000 (ix1 e)
      = X (ix2 (upE e) (0 : Fin 1)) := by
  rw [shapeCast_apply _ shapeCasts_S200000x1_S200000 (ix1 e) (ix2 e (0 : Fin 1)) (by
    rw [Shape.rowMajor_val_two, Shape.rowMajor_val_one]
    show e.val * 1 + 0 = e.val
    omega)]
  exact extractStridedSlice_apply ![0, 0] X slices_S204800x1_S200000x1_0_0 (ix2 e (0 : Fin 1)) (ix2 (upE e) (0 : Fin 1)) (fun a => match a with
    | ⟨0, _⟩ => by show e.val = 0 + e.val; omega
    | ⟨1, _⟩ => by show (0 : Nat) = 0 + 0; omega)

end Cert.KernelIdeal.Hand

end
-- ==== Proof.Region0.lean ====
/-
  Region 0 (the first layer's kernel) as one function of the arrays it finds.

  Each grid point `t` loads rows `4096·t … 4096·t + 4095` of the two padded operands and the whole weight and bias arrays,
  and stores `relu` of the layer on that tile. Because row `p` of the layer depends on row `p` of the operands only, the
  tile at point `t` is the same rows of the layer on the whole arrays; the 25 tiles cover the `102400` rows.
-/
import proofs.«120249_j1305670058226_1_alg».proof.Proof.Gen.KernelIdeal.Frame
import proofs.«120249_j1305670058226_1_alg».proof.Proof.LibSageRecip
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The first layer on whole arrays, rectified. -/
def R0 (A X : Mat 102400 128) (Wl : Mat 128 128) (B : Mat 1 128) (Wr : Mat 128 128) : Mat 102400 128 :=
  fun i => relu (klayer A X Wl Wr B i)

/-- The body's stored value is the rectified layer on its tile. -/
theorem pay0_eq (v0 v3 : Vec Ideal S4096x128 .f32) (v6 v8 : Vec Ideal S128x128 .f32) (v15 : Vec Ideal S1x128 .f32) :
    k0_pay1 (F := Ideal) v0 v3 v6 v8 v15 = fun i => relu (klayer (N := 4096) v0 v3 v6 v8 v15 i) := by
  unfold k0_pay1
  dsimp only
  simp only [shapeCast_self]
  funext i
  rw [← klayer_tile dot_S4096x128_S128x128_S4096x128_1_0_0_1_n_n rfl rfl rfl rfl rfl rfl v0 v3 v6 v8 v15
    transposes_S128x128_p1_0_S128x128 broadcasts_S1x128_S4096x128]
  rfl

/-- The printed index maps, decided over the grid. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is its block of `R0` of the arrays the region finds. -/
theorem flushed0_eq (c : Dev nD) (t : Fin cfg0.N) :
    (dat0 V c).flushed 5 t = ((cfg0.win 5).blk t).view.read (Elt Ideal)
      (R0 (V c main_v25) (V c main_v26) (V c main_arg3) (V c main_v27) (V c main_arg5)) := by
  show (cfg0.win 5).cut (grid0.coords t) ((dat0 V c).after 5 t) = _
  rw [after0_5]
  unfold out0_5
  rw [View.canon_unit_zero hz]
  simp only [View.ld_unit_zero (S := S4096x128) hz, View.ld_unit_zero (S := S128x128) hz, View.ld_unit_zero (S := S1x128) hz]
  rw [pay0_eq]
  obtain ⟨e00, e01, e10, e11, e20, e21, e30, e31, e40, e41, e50, e51⟩ := idx_facts0 t
  funext j
  show relu (klayer (N := 4096) (iblk0 V c 0 t) (iblk0 V c 1 t) (iblk0 V c 2 t) (iblk0 V c 4 t) (iblk0 V c 3 t) j)
     = relu (klayer (V c main_v25) (V c main_v26) (V c main_arg3) (V c main_arg5) (V c main_v27) (((cfg0.win 5).blk t).view.emb j))
  have hj0 : (j 0).val < 4096 := (j 0).isLt
  have hj1 : (j 1).val < 128 := (j 1).isLt
  refine congrArg relu (klayer_at (iblk0 V c 0 t) (iblk0 V c 1 t) (V c main_v25) (V c main_v26) (iblk0 V c 2 t) (iblk0 V c 4 t)
    (V c main_arg3) (V c main_arg5) (iblk0 V c 3 t) (V c main_v27) j (((cfg0.win 5).blk t).view.emb j) ?_ ?_ ?_ ?_ ?_ ?_)
  · apply Fin.ext
    show win0_5.index t (1 : Fin 2) * 128 + 1 * (j 1).val = (j 1).val
    omega
  · intro k
    show V c main_v25 (((cfg0.win 0).blk t).view.emb (ix2 (j 0) k)) = V c main_v25 _
    refine congrArg (V c main_v25) (funext fun a => Fin.ext ?_)
    match a with
    | ⟨0, _⟩ => show win0_0.index t (0 : Fin 2) * 4096 + 1 * (j 0).val = win0_5.index t (0 : Fin 2) * 4096 + 1 * (j 0).val; omega
    | ⟨1, _⟩ => show win0_0.index t (1 : Fin 2) * 128 + 1 * k.val = k.val; omega
  · intro k
    show V c main_v26 (((cfg0.win 1).blk t).view.emb (ix2 (j 0) k)) = V c main_v26 _
    refine congrArg (V c main_v26) (funext fun a => Fin.ext ?_)
    match a with
    | ⟨0, _⟩ => show win0_1.index t (0 : Fin 2) * 4096 + 1 * (j 0).val = win0_5.index t (0 : Fin 2) * 4096 + 1 * (j 0).val; omega
    | ⟨1, _⟩ => show win0_1.index t (1 : Fin 2) * 128 + 1 * k.val = k.val; omega
  · funext y
    show V c main_arg3 (((cfg0.win 2).blk t).view.emb y) = V c main_arg3 y
    refine congrArg (V c main_arg3) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg5 (((cfg0.win 4).blk t).view.emb y) = V c main_arg5 y
    refine congrArg (V c main_arg5) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v27 (((cfg0.win 3).blk t).view.emb y) = V c main_v27 y
    refine congrArg (V c main_v27) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega

/-- An index of the array is in point `t`'s block iff each coordinate is in the block's range on its axis. -/
theorem mem_blk0 (t : Fin cfg0.N) (i : S102400x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v28).slice (win0_5.rect t)).set ↔ _
  rw [View.set_slice_whole, Rect.mem_set_unit]
  exact Iff.rfl

/-- The 25 tiles of 4096 rows cover the array, so it ends holding `R0` of what the region found. -/
theorem final0 (c : Dev nD) : (dat0 V c).arrAt 5 cfg0.N
    = R0 (V c main_v25) (V c main_v26) (V c main_arg3) (V c main_v27) (V c main_arg5) :=
  (dat0 V c).arrAt_eq_of_cover 5 _ (fun t _ => flushed0_eq V c t) fun i => by
    have hi0 : (i 0).val < 102400 := (i 0).isLt
    have hi1 : (i 1).val < 128 := (i 1).isLt
    have hN : cfg0.N = 25 := N_0
    have ht : (i 0).val / 4096 < cfg0.N := by rw [hN]; omega
    obtain ⟨-, -, -, -, -, -, -, -, -, -, e50, e51⟩ := idx_facts0 ⟨(i 0).val / 4096, ht⟩
    refine ⟨⟨(i 0).val / 4096, ht⟩, flush0_5 _, ?_⟩
    rw [mem_blk0]
    intro a
    match a with
    | ⟨0, _⟩ =>
      show win0_5.index ⟨(i 0).val / 4096, ht⟩ (0 : Fin 2) * 4096 ≤ (i 0).val
        ∧ (i 0).val < win0_5.index ⟨(i 0).val / 4096, ht⟩ (0 : Fin 2) * 4096 + 4096
      rw [e50]
      show (i 0).val / 4096 * 4096 ≤ (i 0).val ∧ (i 0).val < (i 0).val / 4096 * 4096 + 4096
      omega
    | ⟨1, _⟩ =>
      show win0_5.index ⟨(i 0).val / 4096, ht⟩ (1 : Fin 2) * 128 ≤ (i 1).val
        ∧ (i 1).val < win0_5.index ⟨(i 0).val / 4096, ht⟩ (1 : Fin 2) * 128 + 128
      rw [e51]
      omega

end Cert.KernelIdeal.Hand

end
-- ==== Proof.Region1.lean ====
/-
  Region 1 (the second layer's kernel) as one function of the arrays it finds.

  As in the first layer, grid point `t` computes rows `4096·t … 4096·t + 4095` of the layer (here `128 → 64` features and no
  rectifier) from the same rows of the two padded operands; the 25 tiles cover the `102400` rows.
-/
import proofs.«120249_j1305670058226_1_alg».proof.Proof.Gen.KernelIdeal.Frame
import proofs.«120249_j1305670058226_1_alg».proof.Proof.LibSageRecip
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

variable (V : (c : Dev nD) → (b : Ref sig .tc) → Buf (Elt Ideal) ((c : Thread nD τ).loc b))

theorem hz1 : (![0, 0] : Fin 2 → Nat) = fun _ => 0 := funext fun a => by fin_cases a <;> rfl

/-- The second layer on whole arrays. -/
def R1 (A X : Mat 102400 128) (Wl : Mat 64 128) (B : Mat 1 64) (Wr : Mat 64 128) : Mat 102400 64 :=
  klayer A X Wl Wr B

/-- The body's stored value is the layer on its tile. -/
theorem pay1_eq (v0 v3 : Vec Ideal S4096x128 .f32) (v6 v8 : Vec Ideal S64x128 .f32) (v15 : Vec Ideal S1x64 .f32) :
    k1_pay1 (F := Ideal) v0 v3 v6 v8 v15 = klayer (N := 4096) v0 v3 v6 v8 v15 := by
  unfold k1_pay1
  dsimp only
  simp only [shapeCast_self]
  rw [← klayer_tile dot_S4096x128_S128x64_S4096x64_1_0_0_1_n_n rfl rfl rfl rfl rfl rfl v0 v3 v6 v8 v15
    transposes_S64x128_p1_0_S128x64 broadcasts_S1x64_S4096x64]
  rfl

/-- The printed index maps, decided over the grid. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is its block of `R1` of the arrays the region finds. -/
theorem flushed1_eq (c : Dev nD) (t : Fin cfg1.N) :
    (dat1 V c).flushed 5 t = ((cfg1.win 5).blk t).view.read (Elt Ideal)
      (R1 (V c main_v43) (V c main_v44) (V c main_arg6) (V c main_v45) (V c main_arg8)) := by
  show (cfg1.win 5).cut (grid1.coords t) ((dat1 V c).after 5 t) = _
  rw [after1_5]
  unfold out1_5
  rw [View.canon_unit_zero hz1]
  simp only [View.ld_unit_zero (S := S4096x128) hz1, View.ld_unit_zero (S := S64x128) hz1, View.ld_unit_zero (S := S1x64) hz1]
  rw [pay1_eq]
  obtain ⟨e00, e01, e10, e11, e20, e21, e30, e31, e40, e41, e50, e51⟩ := idx_facts1 t
  funext j
  show klayer (N := 4096) (iblk1 V c 0 t) (iblk1 V c 1 t) (iblk1 V c 2 t) (iblk1 V c 4 t) (iblk1 V c 3 t) j
     = klayer (V c main_v43) (V c main_v44) (V c main_arg6) (V c main_arg8) (V c main_v45) (((cfg1.win 5).blk t).view.emb j)
  have hj0 : (j 0).val < 4096 := (j 0).isLt
  have hj1 : (j 1).val < 64 := (j 1).isLt
  refine klayer_at (iblk1 V c 0 t) (iblk1 V c 1 t) (V c main_v43) (V c main_v44) (iblk1 V c 2 t) (iblk1 V c 4 t)
    (V c main_arg6) (V c main_arg8) (iblk1 V c 3 t) (V c main_v45) j (((cfg1.win 5).blk t).view.emb j) ?_ ?_ ?_ ?_ ?_ ?_
  · apply Fin.ext
    show win1_5.index t (1 : Fin 2) * 64 + 1 * (j 1).val = (j 1).val
    omega
  · intro k
    show V c main_v43 (((cfg1.win 0).blk t).view.emb (ix2 (j 0) k)) = V c main_v43 _
    refine congrArg (V c main_v43) (funext fun a => Fin.ext ?_)
    match a with
    | ⟨0, _⟩ => show win1_0.index t (0 : Fin 2) * 4096 + 1 * (j 0).val = win1_5.index t (0 : Fin 2) * 4096 + 1 * (j 0).val; omega
    | ⟨1, _⟩ => show win1_0.index t (1 : Fin 2) * 128 + 1 * k.val = k.val; omega
  · intro k
    show V c main_v44 (((cfg1.win 1).blk t).view.emb (ix2 (j 0) k)) = V c main_v44 _
    refine congrArg (V c main_v44) (funext fun a => Fin.ext ?_)
    match a with
    | ⟨0, _⟩ => show win1_1.index t (0 : Fin 2) * 4096 + 1 * (j 0).val = win1_5.index t (0 : Fin 2) * 4096 + 1 * (j 0).val; omega
    | ⟨1, _⟩ => show win1_1.index t (1 : Fin 2) * 128 + 1 * k.val = k.val; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 64 + 1 * (y 0).val = (y 0).val; omega
    | ⟨1, _⟩ => show win1_2.index t (1 : Fin 2) * 128 + 1 * (y 1).val = (y 1).val; omega
  · funext y
    show V c main_arg8 (((cfg1.win 4).blk t).view.emb y) = V c main_arg8 y
    refine congrArg (V c main_arg8) (funext fun a => Fin.ext ?_)
    match a with
    | ⟨0, _⟩ => show win1_4.index t (0 : Fin 2) * 64 + 1 * (y 0).val = (y 0).val; omega
    | ⟨1, _⟩ => show win1_4.index t (1 : Fin 2) * 128 + 1 * (y 1).val = (y 1).val; omega
  · funext y
    show V c main_v45 (((cfg1.win 3).blk t).view.emb y) = V c main_v45 y
    refine congrArg (V c main_v45) (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega

/-- An index of the array is in point `t`'s block iff each coordinate is in the block's range on its axis. -/
theorem mem_blk1 (t : Fin cfg1.N) (i : S102400x64.Idx) :
    i ∈ ((cfg1.win 5).blk t).view.set ↔ ∀ a : Fin 2, win1_5.index t a * S4096x64.size a ≤ (i a).val
      ∧ (i a).val < win1_5.index t a * S4096x64.size a + S4096x64.size a := by
  show i ∈ ((View.whole main_v46).slice (win1_5.rect t)).set ↔ _
  rw [View.set_slice_whole, Rect.mem_set_unit]
  exact Iff.rfl

/-- The 25 tiles of 4096 rows cover the array, so it ends holding `R1` of what the region found. -/
theorem final1 (c : Dev nD) : (dat1 V c).arrAt 5 cfg1.N
    = R1 (V c main_v43) (V c main_v44) (V c main_arg6) (V c main_v45) (V c main_arg8) :=
  (dat1 V c).arrAt_eq_of_cover 5 _ (fun t _ => flushed1_eq V c t) fun i => by
    have hi0 : (i 0).val < 102400 := (i 0).isLt
    have hi1 : (i 1).val < 64 := (i 1).isLt
    have hN : cfg1.N = 25 := N_1
    have ht : (i 0).val / 4096 < cfg1.N := by rw [hN]; omega
    obtain ⟨-, -, -, -, -, -, -, -, -, -, e50, e51⟩ := idx_facts1 ⟨(i 0).val / 4096, ht⟩
    refine ⟨⟨(i 0).val / 4096, ht⟩, flush1_5 _, ?_⟩
    rw [mem_blk1]
    intro a
    match a with
    | ⟨0, _⟩ =>
      show win1_5.index ⟨(i 0).val / 4096, ht⟩ (0 : Fin 2) * 4096 ≤ (i 0).val
        ∧ (i 0).val < win1_5.index ⟨(i 0).val / 4096, ht⟩ (0 : Fin 2) * 4096 + 4096
      rw [e50]
      show (i 0).val / 4096 * 4096 ≤ (i 0).val ∧ (i 0).val < (i 0).val / 4096 * 4096 + 4096
      omega
    | ⟨1, _⟩ =>
      show win1_5.index ⟨(i 0).val / 4096, ht⟩ (1 : Fin 2) * 64 ≤ (i 1).val
        ∧ (i 1).val < win1_5.index ⟨(i 0).val / 4096, ht⟩ (1 : Fin 2) * 64 + 64
      rw [e51]
      omega

end Cert.KernelIdeal.Hand

end
-- ==== Proof.Region2.lean ====
/-
  Region 2 (the decoder's kernel) as one function of the arrays it finds.

  Grid point `t` takes rows `8192·t … 8192·t + 8191` of the two padded endpoint arrays and stores, per row, the sum over the
  64 features of the products: rows of the row-wise dot product of the whole arrays. The 25 tiles cover the `204800` rows.
-/
import proofs.«120249_j1305670058226_1_alg».proof.Proof.Gen.KernelIdeal.Frame
import proofs.«120249_j1305670058226_1_alg».proof.Proof.LibSageRecip
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the row-wise dot product of its tiles (the sum started from zero). -/
theorem pay2_eq (v0 v2 : Vec Ideal S8192x64 .f32) :
    k2_pay1 (F := Ideal) v0 v2 = rowdot (N := 8192) v0 v2 := by
  unfold k2_pay1
  dsimp only
  simp only [shapeCast_self]
  funext i
  refine (congrFun (rowdot_tile (M := 8192) (K := 64) v0 v2 reduces_S8192x64_S8192 _ _ shapeCasts_S8192_S8192x1) i).trans ?_
  show _ = zero32 + _
  rw [show zero32 = (0 : EReal) from Ideal.ofBits_zero_f32, zero_add]

/-- The printed index maps, decided over the grid. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is its block of the row-wise dot product of the arrays the region finds. -/
theorem flushed2_eq (c : Dev nD) (t : Fin cfg2.N) :
    (dat2 V c).flushed 2 t = ((cfg2.win 2).blk t).view.read (Elt Ideal)
      (rowdot (N := 204800) (V c main_v66) (V c main_v67)) := by
  show (cfg2.win 2).cut (grid2.coords t) ((dat2 V c).after 2 t) = _
  rw [after2_2]
  unfold out2_2
  rw [View.canon_unit_zero hz2]
  simp only [View.ld_unit_zero (S := S8192x64) hz2]
  rw [pay2_eq]
  obtain ⟨e00, e01, e10, e11, e20, e21⟩ := idx_facts2 t
  funext j
  show rowdot (N := 8192) (iblk2 V c 0 t) (iblk2 V c 1 t) j
     = rowdot (N := 204800) (V c main_v66) (V c main_v67) (((cfg2.win 2).blk t).view.emb j)
  have hj0 : (j 0).val < 8192 := (j 0).isLt
  refine rowdot_at (iblk2 V c 0 t) (iblk2 V c 1 t) (V c main_v66) (V c main_v67) j (((cfg2.win 2).blk t).view.emb j) ?_ ?_
  · intro k
    show V c main_v66 (((cfg2.win 0).blk t).view.emb (ix2 (j 0) k)) = V c main_v66 _
    refine congrArg (V c main_v66) (funext fun a => Fin.ext ?_)
    match a with
    | ⟨0, _⟩ => show win2_0.index t (0 : Fin 2) * 8192 + 1 * (j 0).val = win2_2.index t (0 : Fin 2) * 8192 + 1 * (j 0).val; omega
    | ⟨1, _⟩ => show win2_0.index t (1 : Fin 2) * 64 + 1 * k.val = k.val; omega
  · intro k
    show V c main_v67 (((cfg2.win 1).blk t).view.emb (ix2 (j 0) k)) = V c main_v67 _
    refine congrArg (V c main_v67) (funext fun a => Fin.ext ?_)
    match a with
    | ⟨0, _⟩ => show win2_1.index t (0 : Fin 2) * 8192 + 1 * (j 0).val = win2_2.index t (0 : Fin 2) * 8192 + 1 * (j 0).val; omega
    | ⟨1, _⟩ => show win2_1.index t (1 : Fin 2) * 64 + 1 * k.val = k.val; omega

/-- An index of the array is in point `t`'s block iff each coordinate is in the block's range on its axis. -/
theorem mem_blk2 (t : Fin cfg2.N) (i : S204800x1.Idx) :
    i ∈ ((cfg2.win 2).blk t).view.set ↔ ∀ a : Fin 2, win2_2.index t a * S8192x1.size a ≤ (i a).val
      ∧ (i a).val < win2_2.index t a * S8192x1.size a + S8192x1.size a := by
  show i ∈ ((View.whole main_v68).slice (win2_2.rect t)).set ↔ _
  rw [View.set_slice_whole, Rect.mem_set_unit]
  exact Iff.rfl

/-- The 25 tiles of 8192 rows cover the array, so it ends holding the row-wise dot product of what the region found. -/
theorem final2 (c : Dev nD) : (dat2 V c).arrAt 2 cfg2.N = rowdot (N := 204800) (V c main_v66) (V c main_v67) :=
  (dat2 V c).arrAt_eq_of_cover 2 _ (fun t _ => flushed2_eq V c t) fun i => by
    have hi0 : (i 0).val < 204800 := (i 0).isLt
    have hi1 : (i 1).val < 1 := (i 1).isLt
    have hN : cfg2.N = 25 := N_2
    have ht : (i 0).val / 8192 < cfg2.N := by rw [hN]; omega
    obtain ⟨-, -, -, -, e20, e21⟩ := idx_facts2 ⟨(i 0).val / 8192, ht⟩
    refine ⟨⟨(i 0).val / 8192, ht⟩, flush2_2 _, ?_⟩
    rw [mem_blk2]
    intro a
    match a with
    | ⟨0, _⟩ =>
      show win2_2.index ⟨(i 0).val / 8192, ht⟩ (0 : Fin 2) * 8192 ≤ (i 0).val
        ∧ (i 0).val < win2_2.index ⟨(i 0).val / 8192, ht⟩ (0 : Fin 2) * 8192 + 8192
      rw [e20]
      show (i 0).val / 8192 * 8192 ≤ (i 0).val ∧ (i 0).val < (i 0).val / 8192 * 8192 + 8192
      omega
    | ⟨1, _⟩ =>
      show win2_2.index ⟨(i 0).val / 8192, ht⟩ (1 : Fin 2) * 1 ≤ (i 1).val
        ∧ (i 1).val < win2_2.index ⟨(i 0).val / 8192, ht⟩ (1 : Fin 2) * 1 + 1
      rw [e21]
      omega

end Cert.KernelIdeal.Hand

end
-- ==== Proof.RefLayers.lean ====
/-
  The reference program's stages as the layer and decoder functions.

  Each `SAGEConv` of the reference is, as a whole array, `sage S (col cnt) f (tr Wl) (row b) (tr Wr)`: the neighbour sums
  `S` divided row by row by the clamped in-degree, times the transposed left weight, plus the bias, plus the node
  features times the transposed right weight. The first is rectified. The result is, per label edge, the dot product of
  the two gathered rows of the second layer's output, summed from zero.
-/
import proofs.«120249_j1305670058226_1_alg».proof.Proof.Gen.ReferenceIdeal.Read
import proofs.«120249_j1305670058226_1_alg».proof.Proof.LibSageRecip

set_option maxRecDepth 16384

noncomputable section

open scoped BigOperators
open Idealize.ShloMosaic Idealize.ShloMosaic.ValueIdx

namespace Cert.ReferenceIdeal.Hand

open Cert.ReferenceIdeal Cert.ReferenceIdeal.Gen Cert.ReferenceIdeal.Read Cert.Spec

/-- The host's transpose of a square weight matrix. -/
theorem transpose128 (W : (⟨S128x128, .f32⟩ : BufTy).Contents (Elt Ideal)) :
    transpose S128x128 [1, 0] W transposes_S128x128_S128x128_1_0 = tr (A := 128) (B := 128) W := by
  funext i
  obtain ⟨k, q, rfl⟩ : ∃ (k : Fin 128) (q : Fin 128), i = ix2 k q := ⟨i 0, i 1, eq_ix2 i⟩
  rw [transpose_ix2_apply]
  rfl

/-- The host's transpose of a `64 × 128` weight matrix. -/
theorem transpose64 (W : (⟨S64x128, .f32⟩ : BufTy).Contents (Elt Ideal)) :
    transpose S128x64 [1, 0] W transposes_S64x128_S128x64_1_0 = tr (A := 64) (B := 128) W := by
  funext i
  obtain ⟨k, q, rfl⟩ : ∃ (k : Fin 128) (q : Fin 64), i = ix2 k q := ⟨i 0, i 1, eq_ix2 i⟩
  rw [transpose_ix2_apply]
  rfl

variable (x : (⟨S100000x128, .f32⟩ : BufTy).Contents (Elt Ideal)) (ei : (⟨S2x600000, .i32⟩ : BufTy).Contents (Elt Ideal))
  (eli : (⟨S2x200000, .i32⟩ : BufTy).Contents (Elt Ideal))
  (W1l : (⟨S128x128, .f32⟩ : BufTy).Contents (Elt Ideal)) (b1 : (⟨S128, .f32⟩ : BufTy).Contents (Elt Ideal))
  (W1r : (⟨S128x128, .f32⟩ : BufTy).Contents (Elt Ideal)) (W2l : (⟨S64x128, .f32⟩ : BufTy).Contents (Elt Ideal))
  (b2 : (⟨S64, .f32⟩ : BufTy).Contents (Elt Ideal)) (W2r : (⟨S64x128, .f32⟩ : BufTy).Contents (Elt Ideal))

/-- The first layer's output: the rectified layer on the sums of `x`. -/
theorem layer1_eq :
    val_main_v31 (F := Ideal) x ei W1l b1 W1r
      = fun i => relu (sage (N := 100000) (C := 128) (C' := 128) (val_main_v13 (F := Ideal) x ei)
          (col (val_main_v17 (F := Ideal) ei)) x (tr W1l) (row b1) (tr W1r) i) := by
  have hs := sage_host (N := 100000) (C := 128) (C' := 128) dot_S100000x128_S128x128_S100000x128_1_0_0_1_n_n rfl rfl rfl rfl rfl rfl
    (val_main_v13 (F := Ideal) x ei) x (val_main_v17 (F := Ideal) ei)
    (transpose S128x128 [1, 0] W1l transposes_S128x128_S128x128_1_0) (transpose S128x128 [1, 0] W1r transposes_S128x128_S128x128_1_0) b1
    bcast_S_S100000 bcast_S100000_S100000x1_0 bcast_S100000x1_S100000x128_0_1 bcast_S128_S1x128_1 bcast_S1x128_S100000x128_0_1
  have h30 : val_main_v30 (F := Ideal) x ei W1l b1 W1r
      = sage (N := 100000) (C := 128) (C' := 128) (val_main_v13 (F := Ideal) x ei) (col (val_main_v17 (F := Ideal) ei)) x
          (transpose S128x128 [1, 0] W1l transposes_S128x128_S128x128_1_0) (row b1)
          (transpose S128x128 [1, 0] W1r transposes_S128x128_S128x128_1_0) := hs
  rw [transpose128, transpose128] at h30
  have hr := relu_host (s := S100000x128) (val_main_v30 (F := Ideal) x ei W1l b1 W1r) bcast_S_S100000x128
  refine Eq.trans (show val_main_v31 (F := Ideal) x ei W1l b1 W1r = _ from hr) ?_
  funext i
  exact congrArg relu (congrFun h30 i)

/-- The second layer's output: the layer on the sums of the first layer's output. -/
theorem layer2_eq :
    val_main_v58 (F := Ideal) x ei W1l b1 W1r W2l b2 W2r
      = sage (N := 100000) (C := 128) (C' := 64) (val_main_v41 (F := Ideal) x ei W1l b1 W1r)
          (col (val_main_v45 (F := Ideal) ei)) (val_main_v31 (F := Ideal) x ei W1l b1 W1r) (tr W2l) (row b2) (tr W2r) := by
  have hs := sage_host (N := 100000) (C := 128) (C' := 64) dot_S100000x128_S128x64_S100000x64_1_0_0_1_n_n rfl rfl rfl rfl rfl rfl
    (val_main_v41 (F := Ideal) x ei W1l b1 W1r) (val_main_v31 (F := Ideal) x ei W1l b1 W1r) (val_main_v45 (F := Ideal) ei)
    (transpose S128x64 [1, 0] W2l transposes_S64x128_S128x64_1_0) (transpose S128x64 [1, 0] W2r transposes_S64x128_S128x64_1_0) b2
    bcast_S_S100000 bcast_S100000_S100000x1_0 bcast_S100000x1_S100000x128_0_1 bcast_S64_S1x64_1 bcast_S1x64_S100000x64_0_1
  have h58 : val_main_v58 (F := Ideal) x ei W1l b1 W1r W2l b2 W2r
      = sage (N := 100000) (C := 128) (C' := 64) (val_main_v41 (F := Ideal) x ei W1l b1 W1r) (col (val_main_v45 (F := Ideal) ei))
          (val_main_v31 (F := Ideal) x ei W1l b1 W1r) (transpose S128x64 [1, 0] W2l transposes_S64x128_S128x64_1_0) (row b2)
          (transpose S128x64 [1, 0] W2r transposes_S64x128_S128x64_1_0) := hs
  rw [transpose64, transpose64] at h58
  exact h58

/-- The result: per label edge, the dot product of the two gathered rows, summed from zero. -/
theorem decode_eq (e : S200000.Idx) :
    val_main_v78 (F := Ideal) x ei eli W1l b1 W1r W2l b2 W2r e
      = rowdot (N := 200000) (C := 64) (val_main_v67 (F := Ideal) x ei eli W1l b1 W1r W2l b2 W2r)
          (val_main_v76 (F := Ideal) x ei eli W1l b1 W1r W2l b2 W2r) (ix2 (e 0) (0 : Fin 1)) := by
  rw [val_main_v78_apply]
  show _ = zero32 + ∑ k : Fin 64, _
  refine congrArg₂ (· + ·) rfl (Finset.sum_congr rfl fun k _ => ?_)
  have hi : idx_main_v78 e k = ix2 (e 0) k := funext fun a => by match a with | ⟨0, _⟩ => rfl | ⟨1, _⟩ => rfl
  rw [hi]
  rfl

end Cert.ReferenceIdeal.Hand

end
-- ==== Proof.KernelValue.lean ====
/-
  The idealized kernel's result is the reference's.

  Followed through the program: the first region finds the scaled neighbour sums of `x` and `x` itself, both padded, and
  leaves the rectified layer on them; cut back to the `100000` nodes this is the reference's first layer, because scaling
  by `1 / max(cnt, 1)` is dividing by `max(cnt, 1)`, the bias may be added last, and rows of padding never reach the rows
  kept. The second region repeats this on the first layer's output, and the third takes the dot products of the rows
  gathered at the label edges' endpoints.
-/
import proofs.«120249_j1305670058226_1_alg».proof.Proof.HostCompose
import proofs.«120249_j1305670058226_1_alg».proof.Proof.HostEntries
import proofs.«120249_j1305670058226_1_alg».proof.Proof.Region0
import proofs.«120249_j1305670058226_1_alg».proof.Proof.Region1
import proofs.«120249_j1305670058226_1_alg».proof.Proof.Region2
import proofs.«120249_j1305670058226_1_alg».proof.Proof.RefLayers

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen Cert.Spec

variable (m : (ℓ : Loc nD τ sig) → Buf (Elt Ideal) ℓ) (ρ : Dev nD → PrngReg) (c : Dev nD)

/-- The argument arrays as launched. -/
abbrev aX : Ht := m ((c : Thread nD τ).loc main_arg0)
abbrev aE : Et := m ((c : Thread nD τ).loc main_arg1)
abbrev aL : Lt := m ((c : Thread nD τ).loc main_arg2)
abbrev aW1l : FVec Ideal S128x128 .f32 := m ((c : Thread nD τ).loc main_arg3)
abbrev ab1 : FVec Ideal S128 .f32 := m ((c : Thread nD τ).loc main_arg4)
abbrev aW1r : FVec Ideal S128x128 .f32 := m ((c : Thread nD τ).loc main_arg5)
abbrev aW2l : FVec Ideal S64x128 .f32 := m ((c : Thread nD τ).loc main_arg6)
abbrev ab2 : FVec Ideal S64 .f32 := m ((c : Thread nD τ).loc main_arg7)
abbrev aW2r : FVec Ideal S64x128 .f32 := m ((c : Thread nD τ).loc main_arg8)

/-- The reference's first and second layer outputs on the launched arguments. -/
abbrev hRef : Ht := Cert.ReferenceIdeal.Read.val_main_v31 (F := Ideal) (aX m c) (aE m c) (aW1l m c) (ab1 m c) (aW1r m c)
abbrev zRef : Zt := Cert.ReferenceIdeal.Read.val_main_v58 (F := Ideal) (aX m c) (aE m c) (aW1l m c) (ab1 m c) (aW1r m c) (aW2l m c) (ab2 m c) (aW2r m c)

/-! ## The first layer -/

/-- What region 0 leaves in its result array. -/
theorem arr0 : (W6 m ρ c (Proc.devRef .tc main_v28) : FVec Ideal S102400x128 .f32)
    = R0 (padRows (scaled (aggOf (aX m c) (srcOf (aE m c)) (dstOf (aE m c))) (recip (aE m c)))) (padRows (aX m c)) (aW1l m c)
        (shapeCast S1x128 (ab1 m c) shapeCasts_S128_S1x128) (aW1r m c) := by
  refine (W6_arr m ρ c 5).trans ((final0 (V5 m ρ) c).trans ?_)
  have e25 : (V5 m ρ c main_v25 : FVec Ideal S102400x128 .f32)
      = padRows (scaled (aggOf (aX m c) (srcOf (aE m c)) (dstOf (aE m c))) (recip (aE m c))) := pre0_v25 (W0 m ρ c)
  have e26 : (V5 m ρ c main_v26 : FVec Ideal S102400x128 .f32) = padRows (aX m c) := pre0_v26 (W0 m ρ c)
  have e27 : (V5 m ρ c main_v27 : FVec Ideal S1x128 .f32) = shapeCast S1x128 (ab1 m c) shapeCasts_S128_S1x128 :=
    pre0_v27 (W0 m ρ c)
  have e3 : (V5 m ρ c main_arg3 : FVec Ideal S128x128 .f32) = aW1l m c := pre0_arg3 (W0 m ρ c)
  have e5 : (V5 m ρ c main_arg5 : FVec Ideal S128x128 .f32) = aW1r m c := pre0_arg5 (W0 m ρ c)
  rw [e25, e26, e27, e3, e5]

/-- The edge arrays and the reciprocal degrees are untouched by region 0. -/
theorem w6_v1 : (W6 m ρ c (Proc.devRef .tc main_v1) : IVec S600000 32) = srcOf (aE m c) :=
  (W6_of_ne m ρ c main_v1 (by decide)).trans (pre0_v1 (W0 m ρ c))
theorem w6_v3 : (W6 m ρ c (Proc.devRef .tc main_v3) : IVec S600000 32) = dstOf (aE m c) :=
  (W6_of_ne m ρ c main_v3 (by decide)).trans (pre0_v3 (W0 m ρ c))
theorem w6_v11 : (W6 m ρ c (Proc.devRef .tc main_v11) : FVec Ideal S100000 .f32) = recip (aE m c) :=
  (W6_of_ne m ρ c main_v11 (by decide)).trans (pre0_v11 (W0 m ρ c))
theorem w6_arg2 : W6 m ρ c (Proc.devRef .tc main_arg2) = aL m c :=
  (W6_of_ne m ρ c main_arg2 (by decide)).trans (pre0_arg2 (W0 m ρ c))
theorem w6_arg6 : W6 m ρ c (Proc.devRef .tc main_arg6) = aW2l m c :=
  (W6_of_ne m ρ c main_arg6 (by decide)).trans (pre0_arg6 (W0 m ρ c))
theorem w6_arg7 : W6 m ρ c (Proc.devRef .tc main_arg7) = ab2 m c :=
  (W6_of_ne m ρ c main_arg7 (by decide)).trans (pre0_arg7 (W0 m ρ c))
theorem w6_arg8 : W6 m ρ c (Proc.devRef .tc main_arg8) = aW2r m c :=
  (W6_of_ne m ρ c main_arg8 (by decide)).trans (pre0_arg8 (W0 m ρ c))

/-- One entry of a layer on padded, reciprocal-scaled sums is the dividing layer's entry. -/
theorem bridge_entry {C' : Nat} (S f : Ht) (ei : Et) (Wl Wr : Mat C' 128) (b : Mat 1 C') (p : Fin 100000) (q : Fin C') :
    klayer (N := 102400) (padRows (scaled S (recip ei))) (padRows f) Wl Wr b (ix2 (up p) q)
      = sage (N := 100000) S (col (cntOf ei)) f (tr Wl) b (tr Wr) (ix2 p q) :=
  klayer_eq_sage S f (col (cntOf ei)) Wl Wr b (padRows (scaled S (recip ei))) (padRows f) p (up p) q
    (fun k => by rw [padRows_apply, scaled_apply, recip_apply]; rfl) (fun k => padRows_apply f p k)

/-- The first layer's output, cut back to the nodes, is the reference's. -/
theorem layer1 : topRows (W6 m ρ c (Proc.devRef .tc main_v28)) = hRef m c := by
  rw [arr0, show hRef m c = _ from Cert.ReferenceIdeal.Hand.layer1_eq _ _ _ _ _, ref_v13, ref_v17]
  funext i
  obtain ⟨p, q, rfl⟩ : ∃ (p : Fin 100000) (q : Fin 128), i = ix2 p q := ⟨i 0, i 1, eq_ix2 i⟩
  rw [topRows_apply, shapeCast_row]
  exact congrArg relu (bridge_entry _ _ _ _ _ _ p q)

/-! ## The second layer -/

/-- What region 1 leaves in its result array. -/
theorem arr1 : (W12 m ρ c (Proc.devRef .tc main_v46) : FVec Ideal S102400x64 .f32)
    = R1 (padRows (scaled (aggOf (hRef m c) (srcOf (aE m c)) (dstOf (aE m c))) (recip (aE m c)))) (padRows (hRef m c)) (aW2l m c)
        (shapeCast S1x64 (ab2 m c) shapeCasts_S64_S1x64) (aW2r m c) := by
  refine (W12_arr m ρ c 5).trans ((final1 (V11 m ρ) c).trans ?_)
  have e43 : (V11 m ρ c main_v43 : FVec Ideal S102400x128 .f32) = _ := pre1_v43 (W6 m ρ c)
  have e44 : (V11 m ρ c main_v44 : FVec Ideal S102400x128 .f32) = _ := pre1_v44 (W6 m ρ c)
  have e45 : (V11 m ρ c main_v45 : FVec Ideal S1x64 .f32) = _ := pre1_v45 (W6 m ρ c)
  have e6 : V11 m ρ c main_arg6 = _ := pre1_arg6 (W6 m ρ c)
  have e8 : V11 m ρ c main_arg8 = _ := pre1_arg8 (W6 m ρ c)
  rw [e43, e44, e45, e6, e8, layer1, w6_v1, w6_v3, w6_v11, w6_arg6, w6_arg7, w6_arg8]

theorem w12_arg2 : W12 m ρ c (Proc.devRef .tc main_arg2) = aL m c :=
  (W12_of_ne m ρ c main_arg2 (by decide)).trans ((pre1_arg2 (W6 m ρ c)).trans (w6_arg2 m ρ c))

/-- The second layer's output, cut back to the nodes, is the reference's. -/
theorem layer2 : topRows64 (W12 m ρ c (Proc.devRef .tc main_v46)) = zRef m c := by
  rw [arr1, show zRef m c = _ from Cert.ReferenceIdeal.Hand.layer2_eq _ _ _ _ _ _ _ _, ref_v41, ref_v45]
  funext i
  obtain ⟨p, q, rfl⟩ : ∃ (p : Fin 100000) (q : Fin 64), i = ix2 p q := ⟨i 0, i 1, eq_ix2 i⟩
  rw [topRows64_apply, shapeCast_row]
  exact bridge_entry _ _ _ _ _ _ p q

/-! ## The decoder -/

/-- What region 2 leaves in its result array. -/
theorem arr2 : (W17 m ρ c (Proc.devRef .tc main_v68) : FVec Ideal S204800x1 .f32)
    = rowdot (N := 204800) (padEdges (rowsAt (zRef m c) (endOf0 (aL m c)))) (padEdges (rowsAt (zRef m c) (endOf1 (aL m c)))) := by
  refine (W17_arr m ρ c 2).trans ((final2 (V16 m ρ) c).trans ?_)
  have e66 : (V16 m ρ c main_v66 : FVec Ideal S204800x64 .f32) = _ := pre2_v66 (W12 m ρ c)
  have e67 : (V16 m ρ c main_v67 : FVec Ideal S204800x64 .f32) = _ := pre2_v67 (W12 m ρ c)
  rw [e66, e67, layer2, w12_arg2]

/-- THE VALUE: the result buffer ends holding the reference's result on the launched arguments. -/
theorem kernel_value : (W18 m ρ c (Proc.devRef .tc main_v70) : FVec Ideal S200000 .f32)
    = Cert.ReferenceIdeal.Read.val_main_v78 (F := Ideal) (aX m c) (aE m c) (aL m c) (aW1l m c) (ab1 m c) (aW1r m c) (aW2l m c) (ab2 m c) (aW2r m c) := by
  refine (post_v70 (W17 m ρ c)).trans ?_
  rw [arr2]
  funext i
  obtain ⟨e, rfl⟩ : ∃ e : Fin 200000, i = ix1 e := ⟨i 0, eq_ix1 i⟩
  rw [flat_apply, Cert.ReferenceIdeal.Hand.decode_eq, ref_v67, ref_v76]
  exact rowdot_rows _ _ _ _ (upE e) e (0 : Fin 1) (0 : Fin 1) (fun k => padEdges_apply _ e k) (fun k => padEdges_apply _ e k)

end Cert.KernelIdeal.Hand

end
-- ==== Proof.lean ====
/-
  A two-layer GraphSAGE encoder with mean aggregation and a dot-product edge decoder: the tiled kernel program against
  the plain reference, equal at the ideal (extended-real) values.

  Both programs compute, for node features `x`, edges `(src, dst)` and label edges `(e0, e1)`,

      cnt[n]  = #{edges into n},                    S(f)[n] = Σ_{edges (s → n)} f[s],
      h       = relu((S(x) / max(cnt, 1)) · W1lᵀ + b1 + x · W1rᵀ),
      z       =       (S(h) / max(cnt, 1)) · W2lᵀ + b2 + h · W2rᵀ,
      out[e]  = Σ_k z[e0[e], k] · z[e1[e], k].

  The reference divides the neighbour sums by the clamped degree. The kernel program multiplies them by the reciprocal
  `1 / max(cnt, 1)`, computed once on the host, pads the operands with rows of zero to 25 tiles of 4096 rows, computes
  each layer tile by tile in a kernel (weights transposed in the body, both products into zero accumulators, the bias
  added last), cuts the padding off, and decodes in a third kernel over 25 tiles of 8192 label edges.

  On the extended reals `s / c = s · (1 / c)` whenever `c ≠ 0`, and `max(cnt, 1) ≥ 1`; sums commute; row `p` of a layer
  depends on row `p` of its operands only, so the padding never reaches a kept row. Hence the two results agree entry by
  entry, for all inputs (no finiteness is used). The kernel's three frames and the program's run with its result named
  are read off the generated frame; the reference's run is the generated one.
-/
import proofs.«120249_j1305670058226_1_alg».proof.Defs
import proofs.«120249_j1305670058226_1_alg».proof.Proof.Gen.Kernel
import proofs.«120249_j1305670058226_1_alg».proof.Proof.Gen.Kernel.Frame
import proofs.«120249_j1305670058226_1_alg».proof.Proof.Gen.KernelIdeal
import proofs.«120249_j1305670058226_1_alg».proof.Proof.Gen.KernelIdeal.Frame
import proofs.«120249_j1305670058226_1_alg».proof.Proof.Gen.ReferenceIdeal
import proofs.«120249_j1305670058226_1_alg».proof.Proof.Gen.ReferenceIdeal.Run
import proofs.«120249_j1305670058226_1_alg».proof.Proof.Gen.ReferenceIdeal.Read
import proofs.«120249_j1305670058226_1_alg».proof.Proof.Gen.Pre_finite_inputs
import proofs.«120249_j1305670058226_1_alg».proof.Proof.KernelRun
import proofs.«120249_j1305670058226_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From agreeing arguments both programs end with the reference's result term of those arguments. -/
theorem algebraic : Cert.algebraic_KernelIdeal_ReferenceIdeal := by
  intro m ρ m' ρ' _ hagree
  refine ⟨fun c => Cert.KernelIdeal.Gen.W18 m ρ c (Proc.devRef .tc Cert.KernelIdeal.main_v70),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v78_eq m' c, h0, h1, h2, h3, h4, h5, h6, h7, h8]
  exact (Cert.KernelIdeal.Hand.kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
